-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg8 : FVec F S128 .f32) (main_v48 : IVec S_ 1) (main_v49 : FVec F S40x128 .f32) (main_v50 : FVec F S40x128 .f32) : IVec S_ 1 :=
  let main_v51 : IVec S40x128 1 := cmpf .olt main_v49 main_v50
  let main_c_19 : IVec S_ 1 := constantI S_ 1 1#1
  let main_v52 : IVec S_ 1 := (fun x v => Host.reduce IntOp.andi x v reducesTo_S40x128_S_d0_1 h_S_) main_v51 main_c_19
  let main_v53 : IVec S_ 1 := andi main_v48 main_v52
  let main_cst_20 : FVec F S_ .f32 := constant S_ .f32 0x00000000#32
  let main_v54 : FVec F S128 .f32 := broadcastInDim S128 ![] bcast_S_S128 main_cst_20
  let main_v55 : IVec S128 1 := cmpf .oge main_arg8 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v53 main_v56
  main_v57

def fn_part2 {F : FTy → Type} [FloatOps F] (main_arg8 : FVec F S128 .f32) (main_arg9 : FVec F S40x128 .f32) (main_arg10 : FVec F S40 .f32) (main_arg11 : FVec F S40x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S40x128 .f32 := Host.absf main_arg9
  let main_cst_14 : FVec F S_ .f32 := constant S_ .f32 0x7F800000#32
  let main_v40 : FVec F S40x128 .f32 := broadcastInDim S40x128 ![] bcast_S_S40x128 main_cst_14
  let main_v41 : IVec S40x128 1 := cmpf .olt main_v39 main_v40
  let main_c_15 : IVec S_ 1 := constantI S_ 1 1#1
  let main_v42 : IVec S_ 1 := (fun x v => Host.reduce IntOp.andi x v reducesTo_S40x128_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : FVec F S40x128 .f32 := Host.absf main_arg11
  let main_cst_18 : FVec F S_ .f32 := constant S_ .f32 0x7F800000#32
  let main_v50 : FVec F S40x128 .f32 := broadcastInDim S40x128 ![] bcast_S_S40x128 main_cst_18
  fn_part3 (F := F) main_arg8 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S40x128 .f32) (main_arg10 : FVec F S40 .f32) (main_arg11 : FVec F S40x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S40x128 .f32) (main_arg10 : FVec F S40 .f32) (main_arg11 : FVec F S40x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S128x40 : Shape := ⟨2, ![128, 40]⟩
abbrev S1x128 : Shape := ⟨2, ![1, 128]⟩
abbrev S50000x40 : Shape := ⟨2, ![50000, 40]⟩
abbrev S2000x128 : Shape := ⟨2, ![2000, 128]⟩
abbrev S2000x1 : Shape := ⟨2, ![2000, 1]⟩
abbrev S2000x40 : Shape := ⟨2, ![2000, 40]⟩
abbrev S800000x40 : Shape := ⟨2, ![800000, 40]⟩
abbrev S1x40 : Shape := ⟨2, ![1, 40]⟩

abbrev nBuf : Space → Nat
  | .hbm => 75
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S40x128, .f32⟩
  | .hbm, ⟨10, _⟩ => ⟨S40, .f32⟩
  | .hbm, ⟨11, _⟩ => ⟨S40x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S50000x1, .f32⟩
  | .hbm, ⟨49, _⟩ => ⟨S128x128, .f32⟩
  | .hbm, ⟨50, _⟩ => ⟨S128x128, .f32⟩
  | .hbm, ⟨51, _⟩ => ⟨S128x40, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S50000x128, .bf16⟩
  | .hbm, ⟨56, _⟩ => ⟨S50000x40, .bf16⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x40, .bf16⟩
  | .hbm, ⟨66, _⟩ => ⟨S800000x40, .f32⟩
  | .hbm, ⟨67, _⟩ => ⟨S_, .f32⟩
  | .hbm, ⟨68, _⟩ => ⟨S50000x40, .f32⟩
  | .hbm, ⟨69, _⟩ => ⟨S800000x1, .i32⟩
  | .hbm, ⟨70, _⟩ => ⟨S50000x40, .f32⟩
  | .hbm, ⟨71, _⟩ => ⟨S50000x1, .f32⟩
  | .hbm, ⟨72, _⟩ => ⟨S128x40, .f32⟩
  | .hbm, ⟨73, _⟩ => ⟨S1x40, .f32⟩
  | .hbm, ⟨74, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x40, .f32⟩
  | .local _ .vmem, ⟨12, _⟩ => ⟨S2000x128, .bf16⟩
  | .local _ .vmem, ⟨13, _⟩ => ⟨S2000x128, .bf16⟩
  | .local _ .vmem, ⟨14, _⟩ => ⟨S2000x40, .bf16⟩
  | .local _ .vmem, ⟨15, _⟩ => ⟨S2000x40, .bf16⟩
  | .local _ .vmem, ⟨16, _⟩ => ⟨S2000x40, .f32⟩
  | .local _ .vmem, ⟨17, _⟩ => ⟨S2000x40, .f32⟩
  | .local _ .vmem, ⟨18, _⟩ => ⟨S2000x1, .f32⟩
  | .local _ .vmem, ⟨19, _⟩ => ⟨S2000x1, .f32⟩
  | .local _ .vmem, ⟨20, _⟩ => ⟨S2000x128, .bf16⟩
  | .local _ .vmem, ⟨21, _⟩ => ⟨S2000x128, .bf16⟩
  | .local _ .vmem, ⟨22, _⟩ => ⟨S128x40, .f32⟩
  | .local _ .vmem, ⟨23, _⟩ => ⟨S1x40, .f32⟩
  | .local _ .vmem, ⟨24, _⟩ => ⟨S2000x40, .f32⟩
  | .local _ .vmem, ⟨25, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x40 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S128 : S_.BroadcastsInDim S128 (![] : Fin 0 → Fin S128.rank)
  shapeCasts_S50000_S50000x1 : S50000.ShapeCasts S50000x1
  transposes_S128x128_S128x128_1_0 : S128x128.Transposes [1, 0] S128x128
  transposes_S40x128_S128x40_1_0 : S40x128.Transposes [1, 0] S128x40
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S2000x40_S2000x40_0_0 : ∀ a, (![0, 0] : Fin 2 → Nat) a + S2000x40.size a ≤ S2000x40.size a
  h_S2000x40 : 0 < S2000x40.numel
  packedbf16_S2000x40_S2000x40_0_0 : (Rect.unit (s := S2000x40) ![0, 0] S2000x40.size inb_S2000x40_S2000x40_0_0).PackedRows (EltTy.packing .bf16)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x40.size a ≤ S128x40.size a
  hwx0_8 : ∀ i : grid0.Coords, EltTy.bits .f32 = 32 ∨ (Rect.block (s := S128x40) S128x40.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .bf16 = 32 ∨ (Rect.block (s := S50000x128) S2000x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x40.size a ≤ S50000x40.size a
  hwx0_10 : ∀ i : grid0.Coords, EltTy.bits .bf16 = 32 ∨ (Rect.block (s := S50000x40) S2000x40.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x40.size a ≤ S50000x40.size a
  hwx1_0 : ∀ i : grid1.Coords, EltTy.bits .f32 = 32 ∨ (Rect.block (s := S50000x40) S2000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S50000x40.size a
  hwx1_5 : ∀ i : grid1.Coords, EltTy.bits .f32 = 32 ∨ (Rect.block (s := S50000x40) S2000x40.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S128x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v35_1) S2000x40.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v46) S2000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35_0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S40x128, .f32⟩
  | .hbm, ⟨10, _⟩ => ⟨S40, .f32⟩
  | .hbm, ⟨11, _⟩ => ⟨S40x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S128x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S128x40, .f32⟩
  | .hbm, ⟨86, _⟩ => ⟨S50000x40, .f32⟩
  | .hbm, ⟨87, _⟩ => ⟨S1x40, .f32⟩
  | .hbm, ⟨88, _⟩ => ⟨S50000x40, .f32⟩
  | .hbm, ⟨89, _⟩ => ⟨S50000x40, .f32⟩
  | .hbm, ⟨90, _⟩ => ⟨S128x40, .f32⟩
  | .hbm, ⟨91, _⟩ => ⟨S50000x40, .f32⟩
  | .hbm, ⟨92, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_7 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel's run with its result named: every weakly fair execution of @main terminates without a fault,
  the twelve argument arrays end as launched, and the result array ends at the contents the last region's write-backs
  leave, `W4 m ρ c` at the result's buffer. The launch over the four segments (host stretch, first region, host
  stretch, second region) is the one that proves the frame; only the final reading differs: the last thread state
  holds every unscoped buffer at `W4`, and the result's buffer is read there beside the arguments'.
-/
import proofs.«141840_j84146999263864_2_alg».proof.Proof.KernelIdealFrameP

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result array at the last boundary's contents and the arguments as launched. -/
theorem run_value : θ_run defs (onTc (τ := τ) (main (F := F))) ⟨m, fun _ => 0, ρ⟩ (fun r => ∀ c : Dev nD,
      r.2.mem ((c.tc : Thread nD τ).loc main_v50) = W4 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v50 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.GenP

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.KernelBody.lean ====
/-
  What the two kernel bodies of the two-layer mean-aggregation network leave in their output blocks, read at one entry,
  as plain arithmetic on the extended reals.

  The first body takes a block of aggregated neighbour features a, the nodes' own features x, the reciprocal-degree
  column iv, two square weight matrices wl and wr, a bias row b, a scale row sc and a shift row sh, and a projection
  matrix w2. Its first output is, at (p, j),
      max ((∑ k, (a (p, k) · iv p) · wl (k, j)) + (∑ k, x (p, k) · wr (k, j)) + b j) 0 · sc j + sh j,
  and its second output is the first one multiplied by w2: at (p, c), ∑ j, first (p, j) · w2 (j, c).
  The second body takes a block of aggregated projected features ag, the reciprocal-degree column, the hidden block h,
  a weight matrix wr and a bias row b, and leaves at (p, c)
      (∑ j, h (p, j) · wr (j, c)) + ag (p, c) · iv p + b c.

  Each output block is written by one store that covers the whole block, so the block holds the stored value; every
  load reads a whole block, so it reads the block's contents. Over the extended reals the changes of number format are
  the identity, the elementwise operations act entry by entry, a column repeated along the rows reads the column's entry
  of that row, a row repeated down the columns reads the row's entry of that column, and a matrix product accumulated
  into the zero matrix is the sum over the contracted coordinate.
-/
import proofs.«141840_j84146999263864_2_alg».proof.Proof.KernelIdealFrameP
import proofs.«141840_j84146999263864_2_alg».proof.Proof.LibPlainMatmul
import proofs.«141840_j84146999263864_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KBody

open Cert.KernelIdeal Cert.KernelIdeal.Gen Cert.KernelIdeal.GenP Idealize.ShloMosaic Idealize.ShloMosaic.ValueIdx

/-- The offset (0, 0) of a whole-block rectangle is the zero offset. -/
theorem hz : (![0, 0] : Fin 2 → Nat) = fun _ => 0 := funext fun a => by fin_cases a <;> rfl

/-- The 2000×128 by 128×40 product's dimension numbers are the plain ones. -/
theorem dot40_plain : dot_S2000x128_S128x40_S2000x40_1_0_0_1_n_n = DotDims.plain 2000 128 40 := rfl

/-- The 2000×128 by 128×128 product's dimension numbers are the plain ones. -/
theorem dot128_plain : dot_S2000x128_S128x128_S2000x128_1_0_0_1_n_n = DotDims.plain 2000 128 128 := rfl

/-- The second body's stored value at (p, c): the hidden row times the weight column, plus the aggregated entry scaled by
    the row's reciprocal degree, plus the bias entry. -/
theorem k1_pay1_apply (ag : Vec Ideal S2000x40 .f32) (iv : Vec Ideal S2000x1 .f32) (h : Vec Ideal S2000x128 .bf16)
    (wr : Vec Ideal S128x40 .f32) (b : Vec Ideal S1x40 .f32) (p : Fin 2000) (c : Fin 40) :
    k1_pay1 (F := Ideal) ag iv h wr b (ix2 p c)
      = ((∑ j : Fin 128, h (ix2 p j) * wr (ix2 j c)) + ag (ix2 p c) * iv (ix2 p (0 : Fin 1))) + b (ix2 (0 : Fin 1) c) := by
  unfold Gen.k1_pay1
  simp only [shapeCast_self]
  rw [addf_apply, addf_apply, mulf_apply,
    Cert.LibPlainMatmul.matmul_eq_plain_zero_apply _ dot40_plain none h (truncf .bf16 wr bitsLt_bf16_f32) p c,
    Cert.Column.broadcastTo_a1_ab_apply, broadcastTo_1b_ab_apply]
  rfl

/-- The first body's value before its store, at (p, j): the degree-scaled aggregated row times the left weight column, plus
    the node's own row times the right weight column, plus the bias entry; clipped below at 0; times the scale entry;
    plus the shift entry. -/
theorem k0_pay2_apply (a x : Vec Ideal S2000x128 .f32) (iv : Vec Ideal S2000x1 .f32) (wl wr : Vec Ideal S128x128 .f32)
    (b sc sh : Vec Ideal S1x128 .f32) (p : Fin 2000) (j : Fin 128) :
    k0_pay2 (F := Ideal) a iv x wl wr b sc sh (ix2 p j)
      = max (((∑ k : Fin 128, (a (ix2 p k) * iv (ix2 p (0 : Fin 1))) * wl (ix2 k j))
          + ∑ k : Fin 128, x (ix2 p k) * wr (ix2 k j)) + b (ix2 (0 : Fin 1) j)) 0 * sc (ix2 (0 : Fin 1) j)
        + sh (ix2 (0 : Fin 1) j) := by
  unfold Gen.k0_pay2
  simp only [shapeCast_self]
  rw [addf_apply, mulf_apply, maximumf_apply, addf_apply, addf_apply,
    Cert.LibPlainMatmul.matmul_eq_plain_zero_apply _ dot128_plain none _ _ p j,
    Cert.LibPlainMatmul.matmul_eq_plain_zero_apply _ dot128_plain none _ _ p j,
    broadcastTo_1b_ab_apply, broadcastTo_1b_ab_apply, broadcastTo_1b_ab_apply, broadcast_apply]
  simp only [truncf_apply, mulf_apply, Cert.Column.broadcastTo_a1_ab_apply]
  rw [show FloatOps.ofBits (F := Ideal) .f32 0x00000000#32 = (0 : EReal) from Ideal.ofBits_zero_f32]

/-- The projection at (p, c): the hidden row times the projection matrix's column. -/
theorem k0_pay1_apply (hid : FVec Ideal S2000x128 .bf16) (w2 : Vec Ideal S128x40 .f32) (p : Fin 2000) (c : Fin 40) :
    k0_pay1 (F := Ideal) hid w2 (ix2 p c) = ∑ j : Fin 128, hid (ix2 p j) * w2 (ix2 j c) := by
  unfold Gen.k0_pay1
  simp only [shapeCast_self]
  rw [truncf_apply, Cert.LibPlainMatmul.matmul_eq_plain_zero_apply _ dot40_plain none _ _ p c]
  rfl

/-- The first body's first output block holds the stored value: one store covers the whole block, and every load reads
    its whole block. -/
theorem out0_9_eq (a x : Vec Ideal S2000x128 .f32) (iv : Vec Ideal S2000x1 .f32) (wl wr : Vec Ideal S128x128 .f32)
    (b sc sh : Vec Ideal S1x128 .f32) (w2 : Vec Ideal S128x40 .f32) :
    out0_9 (F := Ideal) a x iv wl wr b sc sh w2 = k0_pay3 (F := Ideal) a iv x wl wr b sc sh := by
  unfold GenP.out0_9
  rw [View.canon_unit_zero hz]
  simp only [View.ld_unit_zero (S := S2000x128) hz, View.ld_unit_zero (S := S2000x1) hz,
    View.ld_unit_zero (S := S128x128) hz, View.ld_unit_zero (S := S1x128) hz]

/-- The first body's second output block holds the projection of the value the first output stores. -/
theorem out0_10_eq (a x : Vec Ideal S2000x128 .f32) (iv : Vec Ideal S2000x1 .f32) (wl wr : Vec Ideal S128x128 .f32)
    (b sc sh : Vec Ideal S1x128 .f32) (w2 : Vec Ideal S128x40 .f32) :
    out0_10 (F := Ideal) a x iv wl wr b sc sh w2
      = k0_pay1 (F := Ideal) (k0_pay4 (F := Ideal) a iv x wl wr b sc sh) w2 := by
  unfold GenP.out0_10
  rw [View.canon_unit_zero hz]
  simp only [View.ld_unit_zero (S := S2000x128) hz, View.ld_unit_zero (S := S2000x1) hz,
    View.ld_unit_zero (S := S128x128) hz, View.ld_unit_zero (S := S1x128) hz, View.ld_unit_zero (S := S128x40) hz]

/-- The second body's output block holds the stored value. -/
theorem out1_5_eq (ag : Vec Ideal S2000x40 .f32) (iv : Vec Ideal S2000x1 .f32) (h : Vec Ideal S2000x128 .bf16)
    (wr : Vec Ideal S128x40 .f32) (b : Vec Ideal S1x40 .f32) :
    out1_5 (F := Ideal) ag iv h wr b = k1_pay1 (F := Ideal) ag iv h wr b := by
  unfold GenP.out1_5
  rw [View.canon_unit_zero hz]
  simp only [View.ld_unit_zero (S := S2000x40) hz, View.ld_unit_zero (S := S2000x1) hz,
    View.ld_unit_zero (S := S2000x128) hz, View.ld_unit_zero (S := S128x40) hz, View.ld_unit_zero (S := S1x40) hz]

/-- The second body's output at (p, c). -/
theorem out1_5_apply (ag : Vec Ideal S2000x40 .f32) (iv : Vec Ideal S2000x1 .f32) (h : Vec Ideal S2000x128 .bf16)
    (wr : Vec Ideal S128x40 .f32) (b : Vec Ideal S1x40 .f32) (p : Fin 2000) (c : Fin 40) :
    out1_5 (F := Ideal) ag iv h wr b (ix2 p c)
      = ((∑ j : Fin 128, h (ix2 p j) * wr (ix2 j c)) + ag (ix2 p c) * iv (ix2 p (0 : Fin 1))) + b (ix2 (0 : Fin 1) c) :=
  (congrFun (out1_5_eq ag iv h wr b) (ix2 p c)).trans (k1_pay1_apply ag iv h wr b p c)

/-- The first body's first output at (p, j): the narrowing of the stored value changes nothing over the extended reals. -/
theorem out0_9_apply (a x : Vec Ideal S2000x128 .f32) (iv : Vec Ideal S2000x1 .f32) (wl wr : Vec Ideal S128x128 .f32)
    (b sc sh : Vec Ideal S1x128 .f32) (w2 : Vec Ideal S128x40 .f32) (p : Fin 2000) (j : Fin 128) :
    out0_9 (F := Ideal) a x iv wl wr b sc sh w2 (ix2 p j)
      = max (((∑ k : Fin 128, (a (ix2 p k) * iv (ix2 p (0 : Fin 1))) * wl (ix2 k j))
          + ∑ k : Fin 128, x (ix2 p k) * wr (ix2 k j)) + b (ix2 (0 : Fin 1) j)) 0 * sc (ix2 (0 : Fin 1) j)
        + sh (ix2 (0 : Fin 1) j) :=
  (congrFun (out0_9_eq a x iv wl wr b sc sh w2) (ix2 p j)).trans (k0_pay2_apply a x iv wl wr b sc sh p j)

/-- The first body's second output at (p, c): the first output's row p times the projection matrix's column c. -/
theorem out0_10_apply (a x : Vec Ideal S2000x128 .f32) (iv : Vec Ideal S2000x1 .f32) (wl wr : Vec Ideal S128x128 .f32)
    (b sc sh : Vec Ideal S1x128 .f32) (w2 : Vec Ideal S128x40 .f32) (p : Fin 2000) (c : Fin 40) :
    out0_10 (F := Ideal) a x iv wl wr b sc sh w2 (ix2 p c)
      = ∑ j : Fin 128, out0_9 (F := Ideal) a x iv wl wr b sc sh w2 (ix2 p j) * w2 (ix2 j c) := by
  rw [out0_10_eq, out0_9_eq]
  exact k0_pay1_apply _ w2 p c

end Cert.KBody

end
-- ==== Proof.Region0.lean ====
/-
  The first Pallas region, from blocks to arrays, for ANY contents `V` the region is entered with.

  The grid has 25 points. Point `t` stages rows 2000·t … 2000·t + 1999 of the three row-blocked operands (the aggregated
  features, the nodes' own features, the reciprocal-degree column) and the whole of the six small operands (two
  128 × 128 weight matrices, the bias / scale / shift rows, the 128 × 40 projection matrix), and writes back rows
  2000·t … 2000·t + 1999 of the two results. A row of either result depends on the same row of the row-blocked
  operands only, so the 25 write-backs are the 25 row blocks of ONE function of the operand arrays: `H` (hidden
  features, 50000 × 128) and `P` (their projection, 50000 × 40); the blocks tile the arrays, so after the region the two
  result arrays hold `H` and `P` everywhere.
-/
import proofs.«141840_j84146999263864_2_alg».proof.Proof.KernelIdealFrameP
import proofs.«141840_j84146999263864_2_alg».proof.Proof.KernelBody
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.KernelIdeal.GenP

variable (V : (c : Dev nD) → (b : Ref sig .tc) → Buf (Elt Ideal) ((c : Thread nD τ).loc b))

/-- A table from its entries. -/
def tab {M N : ℕ} (g : Fin M → Fin N → EReal) : (⟨2, ![M, N]⟩ : Shape).Idx → EReal :=
  fun i => g ⟨(i 0).val, idx2_lt0 i⟩ ⟨(i 1).val, idx2_lt1 i⟩

theorem tab_apply {M N : ℕ} (g : Fin M → Fin N → EReal) (p : Fin M) (n : Fin N) : tab g (ix2 p n) = g p n := rfl

/-- Row `p` of point `t`'s block is row 2000·t + p of the array. -/
def row0 (t : Fin cfg0.N) (p : Fin 2000) : Fin 50000 :=
  ⟨t.val * 2000 + p.val, by have h : t.val < 25 := lt_of_lt_of_eq t.isLt N_0; omega⟩

/-! ## The printed index maps, decided over the grid -/

theorem idx0_0 : ∀ t : Fin cfg0.N, win0_0.index t 0 = t.val ∧ win0_0.index t 1 = 0 :=
  (by decide +kernel : ∀ t : Fin grid0.N, _)
theorem idx0_1 : ∀ t : Fin cfg0.N, win0_1.index t 0 = t.val ∧ win0_1.index t 1 = 0 :=
  (by decide +kernel : ∀ t : Fin grid0.N, _)
theorem idx0_2 : ∀ t : Fin cfg0.N, win0_2.index t 0 = t.val ∧ win0_2.index t 1 = 0 :=
  (by decide +kernel : ∀ t : Fin grid0.N, _)
theorem idx0_3 : ∀ t : Fin cfg0.N, win0_3.index t 0 = 0 ∧ win0_3.index t 1 = 0 :=
  (by decide +kernel : ∀ t : Fin grid0.N, _)
theorem idx0_4 : ∀ t : Fin cfg0.N, win0_4.index t 0 = 0 ∧ win0_4.index t 1 = 0 :=
  (by decide +kernel : ∀ t : Fin grid0.N, _)
theorem idx0_5 : ∀ t : Fin cfg0.N, win0_5.index t 0 = 0 ∧ win0_5.index t 1 = 0 :=
  (by decide +kernel : ∀ t : Fin grid0.N, _)
theorem idx0_6 : ∀ t : Fin cfg0.N, win0_6.index t 0 = 0 ∧ win0_6.index t 1 = 0 :=
  (by decide +kernel : ∀ t : Fin grid0.N, _)
theorem idx0_7 : ∀ t : Fin cfg0.N, win0_7.index t 0 = 0 ∧ win0_7.index t 1 = 0 :=
  (by decide +kernel : ∀ t : Fin grid0.N, _)
theorem idx0_8 : ∀ t : Fin cfg0.N, win0_8.index t 0 = 0 ∧ win0_8.index t 1 = 0 :=
  (by decide +kernel : ∀ t : Fin grid0.N, _)
theorem idx0_9 : ∀ t : Fin cfg0.N, win0_9.index t 0 = t.val ∧ win0_9.index t 1 = 0 :=
  (by decide +kernel : ∀ t : Fin grid0.N, _)
theorem idx0_10 : ∀ t : Fin cfg0.N, win0_10.index t 0 = t.val ∧ win0_10.index t 1 = 0 :=
  (by decide +kernel : ∀ t : Fin grid0.N, _)

/-! ## Each operand's block at a point, as entries of its array -/

theorem blk0_0 (c : Dev nD) (t : Fin cfg0.N) (p : Fin 2000) (k : Fin 128) :
    (iblk0 V c 0 t : S2000x128.Idx → EReal) (ix2 p k) = (V c main_v21 : S50000x128.Idx → EReal) (ix2 (row0 t p) k) := by
  obtain ⟨h0, h1⟩ := idx0_0 t
  unfold iblk0
  rw [View.read_apply]
  show (V c main_v21 : S50000x128.Idx → EReal) _ = (V c main_v21 : S50000x128.Idx → EReal) _
  congr 1
  funext a
  apply Fin.ext
  match a with
  | ⟨0, _⟩ => show win0_0.index t 0 * 2000 + 1 * p.val = t.val * 2000 + p.val; rw [h0]; omega
  | ⟨1, _⟩ => show win0_0.index t 1 * 128 + 1 * k.val = k.val; rw [h1]; omega

theorem blk0_1 (c : Dev nD) (t : Fin cfg0.N) (p : Fin 2000) (k : Fin 128) :
    (iblk0 V c 1 t : S2000x128.Idx → EReal) (ix2 p k) = (V c main_arg0 : S50000x128.Idx → EReal) (ix2 (row0 t p) k) := by
  obtain ⟨h0, h1⟩ := idx0_1 t
  unfold iblk0
  rw [View.read_apply]
  show (V c main_arg0 : S50000x128.Idx → EReal) _ = (V c main_arg0 : S50000x128.Idx → EReal) _
  congr 1
  funext a
  apply Fin.ext
  match a with
  | ⟨0, _⟩ => show win0_1.index t 0 * 2000 + 1 * p.val = t.val * 2000 + p.val; rw [h0]; omega
  | ⟨1, _⟩ => show win0_1.index t 1 * 128 + 1 * k.val = k.val; rw [h1]; omega

theorem blk0_2 (c : Dev nD) (t : Fin cfg0.N) (p : Fin 2000) (k : Fin 1) :
    (iblk0 V c 2 t : S2000x1.Idx → EReal) (ix2 p k) = (V c main_v28 : S50000x1.Idx → EReal) (ix2 (row0 t p) k) := by
  obtain ⟨h0, h1⟩ := idx0_2 t
  unfold iblk0
  rw [View.read_apply]
  show (V c main_v28 : S50000x1.Idx → EReal) _ = (V c main_v28 : S50000x1.Idx → EReal) _
  congr 1
  funext a
  apply Fin.ext
  match a with
  | ⟨0, _⟩ => show win0_2.index t 0 * 2000 + 1 * p.val = t.val * 2000 + p.val; rw [h0]; omega
  | ⟨1, _⟩ => show win0_2.index t 1 * 1 + 1 * k.val = k.val; rw [h1]; omega

theorem blk0_3 (c : Dev nD) (t : Fin cfg0.N) (p : Fin 128) (k : Fin 128) :
    (iblk0 V c 3 t : S128x128.Idx → EReal) (ix2 p k) = (V c main_v29 : S128x128.Idx → EReal) (ix2 p k) := by
  obtain ⟨h0, h1⟩ := idx0_3 t
  unfold iblk0
  rw [View.read_apply]
  show (V c main_v29 : S128x128.Idx → EReal) _ = (V c main_v29 : S128x128.Idx → EReal) _
  congr 1
  funext a
  apply Fin.ext
  match a with
  | ⟨0, _⟩ => show win0_3.index t 0 * 128 + 1 * p.val = p.val; rw [h0]; omega
  | ⟨1, _⟩ => show win0_3.index t 1 * 128 + 1 * k.val = k.val; rw [h1]; omega

theorem blk0_4 (c : Dev nD) (t : Fin cfg0.N) (p : Fin 128) (k : Fin 128) :
    (iblk0 V c 4 t : S128x128.Idx → EReal) (ix2 p k) = (V c main_v30 : S128x128.Idx → EReal) (ix2 p k) := by
  obtain ⟨h0, h1⟩ := idx0_4 t
  unfold iblk0
  rw [View.read_apply]
  show (V c main_v30 : S128x128.Idx → EReal) _ = (V c main_v30 : S128x128.Idx → EReal) _
  congr 1
  funext a
  apply Fin.ext
  match a with
  | ⟨0, _⟩ => show win0_4.index t 0 * 128 + 1 * p.val = p.val; rw [h0]; omega
  | ⟨1, _⟩ => show win0_4.index t 1 * 128 + 1 * k.val = k.val; rw [h1]; omega

theorem blk0_5 (c : Dev nD) (t : Fin cfg0.N) (p : Fin 1) (k : Fin 128) :
    (iblk0 V c 5 t : S1x128.Idx → EReal) (ix2 p k) = (V c main_v32 : S1x128.Idx → EReal) (ix2 p k) := by
  obtain ⟨h0, h1⟩ := idx0_5 t
  unfold iblk0
  rw [View.read_apply]
  show (V c main_v32 : S1x128.Idx → EReal) _ = (V c main_v32 : S1x128.Idx → EReal) _
  congr 1
  funext a
  apply Fin.ext
  match a with
  | ⟨0, _⟩ => show win0_5.index t 0 * 1 + 1 * p.val = p.val; rw [h0]; omega
  | ⟨1, _⟩ => show win0_5.index t 1 * 128 + 1 * k.val = k.val; rw [h1]; omega

theorem blk0_6 (c : Dev nD) (t : Fin cfg0.N) (p : Fin 1) (k : Fin 128) :
    (iblk0 V c 6 t : S1x128.Idx → EReal) (ix2 p k) = (V c main_v33 : S1x128.Idx → EReal) (ix2 p k) := by
  obtain ⟨h0, h1⟩ := idx0_6 t
  unfold iblk0
  rw [View.read_apply]
  show (V c main_v33 : S1x128.Idx → EReal) _ = (V c main_v33 : S1x128.Idx → EReal) _
  congr 1
  funext a
  apply Fin.ext
  match a with
  | ⟨0, _⟩ => show win0_6.index t 0 * 1 + 1 * p.val = p.val; rw [h0]; omega
  | ⟨1, _⟩ => show win0_6.index t 1 * 128 + 1 * k.val = k.val; rw [h1]; omega

theorem blk0_7 (c : Dev nD) (t : Fin cfg0.N) (p : Fin 1) (k : Fin 128) :
    (iblk0 V c 7 t : S1x128.Idx → EReal) (ix2 p k) = (V c main_v34 : S1x128.Idx → EReal) (ix2 p k) := by
  obtain ⟨h0, h1⟩ := idx0_7 t
  unfold iblk0
  rw [View.read_apply]
  show (V c main_v34 : S1x128.Idx → EReal) _ = (V c main_v34 : S1x128.Idx → EReal) _
  congr 1
  funext a
  apply Fin.ext
  match a with
  | ⟨0, _⟩ => show win0_7.index t 0 * 1 + 1 * p.val = p.val; rw [h0]; omega
  | ⟨1, _⟩ => show win0_7.index t 1 * 128 + 1 * k.val = k.val; rw [h1]; omega

theorem blk0_8 (c : Dev nD) (t : Fin cfg0.N) (p : Fin 128) (k : Fin 40) :
    (iblk0 V c 8 t : S128x40.Idx → EReal) (ix2 p k) = (V c main_v31 : S128x40.Idx → EReal) (ix2 p k) := by
  obtain ⟨h0, h1⟩ := idx0_8 t
  unfold iblk0
  rw [View.read_apply]
  show (V c main_v31 : S128x40.Idx → EReal) _ = (V c main_v31 : S128x40.Idx → EReal) _
  congr 1
  funext a
  apply Fin.ext
  match a with
  | ⟨0, _⟩ => show win0_8.index t 0 * 128 + 1 * p.val = p.val; rw [h0]; omega
  | ⟨1, _⟩ => show win0_8.index t 1 * 40 + 1 * k.val = k.val; rw [h1]; omega

/-! ## The two results as functions of the operand arrays -/

/-- Hidden features of node `n`, channel `j`, from the nine operand arrays. -/
def Hf (A X : S50000x128.Idx → EReal) (IV : S50000x1.Idx → EReal) (WL WR : S128x128.Idx → EReal) (B SC SH : S1x128.Idx → EReal)
    (n : Fin 50000) (j : Fin 128) : EReal :=
  max (((∑ k : Fin 128, (A (ix2 n k) * IV (ix2 n (0 : Fin 1))) * WL (ix2 k j)) + ∑ k : Fin 128, X (ix2 n k) * WR (ix2 k j))
      + B (ix2 (0 : Fin 1) j)) 0 * SC (ix2 (0 : Fin 1) j) + SH (ix2 (0 : Fin 1) j)

/-- The hidden features over the buffers the region is entered with. -/
def H (c : Dev nD) (n : Fin 50000) (j : Fin 128) : EReal :=
  Hf (V c main_v21) (V c main_arg0) (V c main_v28) (V c main_v29) (V c main_v30) (V c main_v32) (V c main_v33) (V c main_v34) n j

/-- The hidden features of node `n` projected onto class `q`, from the projection matrix `W`. -/
def Pf (h : Fin 50000 → Fin 128 → EReal) (W : S128x40.Idx → EReal) (n : Fin 50000) (q : Fin 40) : EReal :=
  ∑ j : Fin 128, h n j * W (ix2 j q)

def P (c : Dev nD) (n : Fin 50000) (q : Fin 40) : EReal := Pf (H V c) (V c main_v31) n q

/-- The body's hidden block at point `t`, row `p`, is `H` at row 2000·t + p. -/
theorem hidden_block (c : Dev nD) (t : Fin cfg0.N) (p : Fin 2000) (j : Fin 128) :
    (out0_9 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) : S2000x128.Idx → EReal) (ix2 p j) = H V c (row0 t p) j := by
  refine (Cert.KBody.out0_9_apply (iblk0 V c 0 t) (iblk0 V c 1 t) (iblk0 V c 2 t) (iblk0 V c 3 t) (iblk0 V c 4 t) (iblk0 V c 5 t)
    (iblk0 V c 6 t) (iblk0 V c 7 t) (iblk0 V c 8 t) p j).trans ?_
  unfold H Hf
  simp only [blk0_0 V c t, blk0_1 V c t, blk0_2 V c t, blk0_3 V c t, blk0_4 V c t, blk0_5 V c t, blk0_6 V c t, blk0_7 V c t]

/-- What point `t` writes back of the hidden features is block `t` of `H`. -/
theorem flushed9 (c : Dev nD) (t : Fin cfg0.N) :
    (dat0 V c).flushed 9 t = ((cfg0.win 9).blk t).view.read (Elt Ideal) (tab (H V c)) := by
  show (cfg0.win 9).cut (grid0.coords t) ((dat0 V c).after 9 t) = _
  rw [after0_9]
  funext y
  obtain ⟨p, j, rfl⟩ : ∃ (p : Fin 2000) (j : Fin 128), y = ix2 p j := ⟨y 0, y 1, eq_ix2 y⟩
  rw [View.read_apply]
  have hemb : ((cfg0.win 9).blk t).view.emb (ix2 p j) = (ix2 (row0 t p) j : S50000x128.Idx) := by
    obtain ⟨h0, h1⟩ := idx0_9 t
    funext a
    apply Fin.ext
    match a with
    | ⟨0, _⟩ => show win0_9.index t 0 * 2000 + 1 * p.val = t.val * 2000 + p.val; rw [h0]; omega
    | ⟨1, _⟩ => show win0_9.index t 1 * 128 + 1 * j.val = j.val; rw [h1]; omega
  rw [hemb]
  exact (hidden_block V c t p j).trans (tab_apply _ _ _).symm

/-- What point `t` writes back of the projection is block `t` of `P`. -/
theorem flushed10 (c : Dev nD) (t : Fin cfg0.N) :
    (dat0 V c).flushed 10 t = ((cfg0.win 10).blk t).view.read (Elt Ideal) (tab (P V c)) := by
  show (cfg0.win 10).cut (grid0.coords t) ((dat0 V c).after 10 t) = _
  rw [after0_10]
  funext y
  obtain ⟨p, q, rfl⟩ : ∃ (p : Fin 2000) (q : Fin 40), y = ix2 p q := ⟨y 0, y 1, eq_ix2 y⟩
  rw [View.read_apply]
  have hemb : ((cfg0.win 10).blk t).view.emb (ix2 p q) = (ix2 (row0 t p) q : S50000x40.Idx) := by
    obtain ⟨h0, h1⟩ := idx0_10 t
    funext a
    apply Fin.ext
    match a with
    | ⟨0, _⟩ => show win0_10.index t 0 * 2000 + 1 * p.val = t.val * 2000 + p.val; rw [h0]; omega
    | ⟨1, _⟩ => show win0_10.index t 1 * 40 + 1 * q.val = q.val; rw [h1]; omega
  rw [hemb, tab_apply]
  refine (Cert.KBody.out0_10_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  unfold P Pf
  refine Finset.sum_congr rfl fun j _ => ?_
  rw [hidden_block V c t p j, blk0_8 V c t]

/-- An index is in point `t`'s block iff each coordinate is in the block's range on its axis. -/
theorem mem_blk9 (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v35_0).slice (win0_9.rect t)).set ↔ _
  rw [View.set_slice_whole, Rect.mem_set_unit]
  exact Iff.rfl

/-- Every row lies in the block of the point numbered by its quotient by 2000. -/
theorem cover9 (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have hN : (i 0).val / 2000 < cfg0.N := lt_of_lt_of_eq (by omega : (i 0).val / 2000 < 25) N_0.symm
  obtain ⟨h0, h1⟩ := idx0_9 ⟨(i 0).val / 2000, hN⟩
  refine ⟨⟨(i 0).val / 2000, hN⟩, flush0_9 _, ?_⟩
  rw [mem_blk9]
  intro a
  match a with
  | ⟨0, _⟩ =>
    show win0_9.index ⟨(i 0).val / 2000, hN⟩ 0 * 2000 ≤ (i 0).val ∧ (i 0).val < win0_9.index ⟨(i 0).val / 2000, hN⟩ 0 * 2000 + 2000
    rw [h0]
    show (i 0).val / 2000 * 2000 ≤ (i 0).val ∧ (i 0).val < (i 0).val / 2000 * 2000 + 2000
    omega
  | ⟨1, _⟩ =>
    show win0_9.index ⟨(i 0).val / 2000, hN⟩ 1 * 128 ≤ (i 1).val ∧ (i 1).val < win0_9.index ⟨(i 0).val / 2000, hN⟩ 1 * 128 + 128
    rw [h1]
    omega

/-- An index is in point `t`'s block iff each coordinate is in the block's range on its axis. -/
theorem mem_blk10 (t : Fin cfg0.N) (i : S50000x40.Idx) :
    i ∈ ((cfg0.win 10).blk t).view.set ↔ ∀ a : Fin 2, win0_10.index t a * S2000x40.size a ≤ (i a).val ∧ (i a).val < win0_10.index t a * S2000x40.size a + S2000x40.size a := by
  show i ∈ ((View.whole main_v35_1).slice (win0_10.rect t)).set ↔ _
  rw [View.set_slice_whole, Rect.mem_set_unit]
  exact Iff.rfl

/-- Every row lies in the block of the point numbered by its quotient by 2000. -/
theorem cover10 (i : S50000x40.Idx) :
    ∃ t : Fin cfg0.N, (cfg0.win 10).flush t = true ∧ i ∈ ((cfg0.win 10).blk t).view.set := by
  have hi0 : (i 0).val < 50000 := (i 0).isLt
  have hi1 : (i 1).val < 40 := (i 1).isLt
  have hN : (i 0).val / 2000 < cfg0.N := lt_of_lt_of_eq (by omega : (i 0).val / 2000 < 25) N_0.symm
  obtain ⟨h0, h1⟩ := idx0_10 ⟨(i 0).val / 2000, hN⟩
  refine ⟨⟨(i 0).val / 2000, hN⟩, flush0_10 _, ?_⟩
  rw [mem_blk10]
  intro a
  match a with
  | ⟨0, _⟩ =>
    show win0_10.index ⟨(i 0).val / 2000, hN⟩ 0 * 2000 ≤ (i 0).val ∧ (i 0).val < win0_10.index ⟨(i 0).val / 2000, hN⟩ 0 * 2000 + 2000
    rw [h0]
    show (i 0).val / 2000 * 2000 ≤ (i 0).val ∧ (i 0).val < (i 0).val / 2000 * 2000 + 2000
    omega
  | ⟨1, _⟩ =>
    show win0_10.index ⟨(i 0).val / 2000, hN⟩ 1 * 40 ≤ (i 1).val ∧ (i 1).val < win0_10.index ⟨(i 0).val / 2000, hN⟩ 1 * 40 + 40
    rw [h1]
    omega

/-- AFTER THE REGION the hidden-feature array holds `H` and the projection array holds `P`. -/
theorem hidden_array (c : Dev nD) : (dat0 V c).arrAt 9 cfg0.N = tab (H V c) :=
  (dat0 V c).arrAt_eq_of_cover 9 (tab (H V c)) (fun t _ => flushed9 V c t) cover9

theorem proj_array (c : Dev nD) : (dat0 V c).arrAt 10 cfg0.N = tab (P V c) :=
  (dat0 V c).arrAt_eq_of_cover 10 (tab (P V c)) (fun t _ => flushed10 V c t) cover10

end Cert.KernelIdeal.Reg0

end
-- ==== Proof.Region1.lean ====
/-
  The second Pallas region, from blocks to the result array, for ANY contents `V` the region is entered with.

  Again 25 points; point `t` stages rows 2000·t … 2000·t + 1999 of the aggregated projections, of the reciprocal-degree
  column and of the hidden features, the whole 128 × 40 weight matrix and the 1 × 40 bias row, and writes back the same
  rows of the result. Row `n` of the result depends on row `n` of the row-blocked operands only, so the write-backs are
  the row blocks of one function `O` of the operand arrays, and they tile the result.
-/
import proofs.«141840_j84146999263864_2_alg».proof.Proof.Region0

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen Cert.KernelIdeal.GenP

variable (V : (c : Dev nD) → (b : Ref sig .tc) → Buf (Elt Ideal) ((c : Thread nD τ).loc b))

open Cert.KernelIdeal.Reg0 (tab tab_apply)

/-- Row `p` of point `t`'s block is row 2000·t + p of the array. -/
def row1 (t : Fin cfg1.N) (p : Fin 2000) : Fin 50000 :=
  ⟨t.val * 2000 + p.val, by have h : t.val < 25 := lt_of_lt_of_eq t.isLt N_1; omega⟩

/-! ## The printed index maps, decided over the grid -/

theorem idx1_0 : ∀ t : Fin cfg1.N, win1_0.index t 0 = t.val ∧ win1_0.index t 1 = 0 :=
  (by decide +kernel : ∀ t : Fin grid1.N, _)
theorem idx1_1 : ∀ t : Fin cfg1.N, win1_1.index t 0 = t.val ∧ win1_1.index t 1 = 0 :=
  (by decide +kernel : ∀ t : Fin grid1.N, _)
theorem idx1_2 : ∀ t : Fin cfg1.N, win1_2.index t 0 = t.val ∧ win1_2.index t 1 = 0 :=
  (by decide +kernel : ∀ t : Fin grid1.N, _)
theorem idx1_3 : ∀ t : Fin cfg1.N, win1_3.index t 0 = 0 ∧ win1_3.index t 1 = 0 :=
  (by decide +kernel : ∀ t : Fin grid1.N, _)
theorem idx1_4 : ∀ t : Fin cfg1.N, win1_4.index t 0 = 0 ∧ win1_4.index t 1 = 0 :=
  (by decide +kernel : ∀ t : Fin grid1.N, _)
theorem idx1_5 : ∀ t : Fin cfg1.N, win1_5.index t 0 = t.val ∧ win1_5.index t 1 = 0 :=
  (by decide +kernel : ∀ t : Fin grid1.N, _)

/-! ## Each operand's block at a point, as entries of its array -/

theorem blk1_0 (c : Dev nD) (t : Fin cfg1.N) (p : Fin 2000) (k : Fin 40) :
    (iblk1 V c 0 t : S2000x40.Idx → EReal) (ix2 p k) = (V c main_v46 : S50000x40.Idx → EReal) (ix2 (row1 t p) k) := by
  obtain ⟨h0, h1⟩ := idx1_0 t
  unfold iblk1
  rw [View.read_apply]
  show (V c main_v46 : S50000x40.Idx → EReal) _ = (V c main_v46 : S50000x40.Idx → EReal) _
  congr 1
  funext a
  apply Fin.ext
  match a with
  | ⟨0, _⟩ => show win1_0.index t 0 * 2000 + 1 * p.val = t.val * 2000 + p.val; rw [h0]; omega
  | ⟨1, _⟩ => show win1_0.index t 1 * 40 + 1 * k.val = k.val; rw [h1]; omega

theorem blk1_1 (c : Dev nD) (t : Fin cfg1.N) (p : Fin 2000) (k : Fin 1) :
    (iblk1 V c 1 t : S2000x1.Idx → EReal) (ix2 p k) = (V c main_v47 : S50000x1.Idx → EReal) (ix2 (row1 t p) k) := by
  obtain ⟨h0, h1⟩ := idx1_1 t
  unfold iblk1
  rw [View.read_apply]
  show (V c main_v47 : S50000x1.Idx → EReal) _ = (V c main_v47 : S50000x1.Idx → EReal) _
  congr 1
  funext a
  apply Fin.ext
  match a with
  | ⟨0, _⟩ => show win1_1.index t 0 * 2000 + 1 * p.val = t.val * 2000 + p.val; rw [h0]; omega
  | ⟨1, _⟩ => show win1_1.index t 1 * 1 + 1 * k.val = k.val; rw [h1]; omega

theorem blk1_2 (c : Dev nD) (t : Fin cfg1.N) (p : Fin 2000) (k : Fin 128) :
    (iblk1 V c 2 t : S2000x128.Idx → EReal) (ix2 p k) = (V c main_v35_0 : S50000x128.Idx → EReal) (ix2 (row1 t p) k) := by
  obtain ⟨h0, h1⟩ := idx1_2 t
  unfold iblk1
  rw [View.read_apply]
  show (V c main_v35_0 : S50000x128.Idx → EReal) _ = (V c main_v35_0 : S50000x128.Idx → EReal) _
  congr 1
  funext a
  apply Fin.ext
  match a with
  | ⟨0, _⟩ => show win1_2.index t 0 * 2000 + 1 * p.val = t.val * 2000 + p.val; rw [h0]; omega
  | ⟨1, _⟩ => show win1_2.index t 1 * 128 + 1 * k.val = k.val; rw [h1]; omega

theorem blk1_3 (c : Dev nD) (t : Fin cfg1.N) (p : Fin 128) (k : Fin 40) :
    (iblk1 V c 3 t : S128x40.Idx → EReal) (ix2 p k) = (V c main_v48 : S128x40.Idx → EReal) (ix2 p k) := by
  obtain ⟨h0, h1⟩ := idx1_3 t
  unfold iblk1
  rw [View.read_apply]
  show (V c main_v48 : S128x40.Idx → EReal) _ = (V c main_v48 : S128x40.Idx → EReal) _
  congr 1
  funext a
  apply Fin.ext
  match a with
  | ⟨0, _⟩ => show win1_3.index t 0 * 128 + 1 * p.val = p.val; rw [h0]; omega
  | ⟨1, _⟩ => show win1_3.index t 1 * 40 + 1 * k.val = k.val; rw [h1]; omega

theorem blk1_4 (c : Dev nD) (t : Fin cfg1.N) (p : Fin 1) (k : Fin 40) :
    (iblk1 V c 4 t : S1x40.Idx → EReal) (ix2 p k) = (V c main_v49 : S1x40.Idx → EReal) (ix2 p k) := by
  obtain ⟨h0, h1⟩ := idx1_4 t
  unfold iblk1
  rw [View.read_apply]
  show (V c main_v49 : S1x40.Idx → EReal) _ = (V c main_v49 : S1x40.Idx → EReal) _
  congr 1
  funext a
  apply Fin.ext
  match a with
  | ⟨0, _⟩ => show win1_4.index t 0 * 1 + 1 * p.val = p.val; rw [h0]; omega
  | ⟨1, _⟩ => show win1_4.index t 1 * 40 + 1 * k.val = k.val; rw [h1]; omega

/-- The result at node `n`, class `q`, from the five operand arrays: own hidden features times the weights, plus the
    aggregated projections scaled by the reciprocal degree, plus the bias. -/
def Of (AG : S50000x40.Idx → EReal) (IV : S50000x1.Idx → EReal) (Hd : S50000x128.Idx → EReal) (WR : S128x40.Idx → EReal)
    (B : S1x40.Idx → EReal) (n : Fin 50000) (q : Fin 40) : EReal :=
  ((∑ j : Fin 128, Hd (ix2 n j) * WR (ix2 j q)) + AG (ix2 n q) * IV (ix2 n (0 : Fin 1))) + B (ix2 (0 : Fin 1) q)

/-- The result over the buffers the region is entered with. -/
def O (c : Dev nD) (n : Fin 50000) (q : Fin 40) : EReal :=
  Of (V c main_v46) (V c main_v47) (V c main_v35_0) (V c main_v48) (V c main_v49) n q

/-- What point `t` writes back is block `t` of `O`. -/
theorem flushed5 (c : Dev nD) (t : Fin cfg1.N) :
    (dat1 V c).flushed 5 t = ((cfg1.win 5).blk t).view.read (Elt Ideal) (tab (O V c)) := by
  show (cfg1.win 5).cut (grid1.coords t) ((dat1 V c).after 5 t) = _
  rw [after1_5]
  funext y
  obtain ⟨p, q, rfl⟩ : ∃ (p : Fin 2000) (q : Fin 40), y = ix2 p q := ⟨y 0, y 1, eq_ix2 y⟩
  rw [View.read_apply]
  have hemb : ((cfg1.win 5).blk t).view.emb (ix2 p q) = (ix2 (row1 t p) q : S50000x40.Idx) := by
    obtain ⟨h0, h1⟩ := idx1_5 t
    funext a
    apply Fin.ext
    match a with
    | ⟨0, _⟩ => show win1_5.index t 0 * 2000 + 1 * p.val = t.val * 2000 + p.val; rw [h0]; omega
    | ⟨1, _⟩ => show win1_5.index t 1 * 40 + 1 * q.val = q.val; rw [h1]; omega
  refine Eq.trans ?_ (congrArg (tab (O V c)) hemb).symm
  refine Eq.trans ?_ (tab_apply _ _ _).symm
  refine (Cert.KBody.out1_5_apply (iblk1 V c 0 t) (iblk1 V c 1 t) (iblk1 V c 2 t) (iblk1 V c 3 t) (iblk1 V c 4 t) p q).trans ?_
  unfold O Of
  simp only [blk1_0 V c t, blk1_1 V c t, blk1_2 V c t, blk1_3 V c t, blk1_4 V c t]

/-- An index is in point `t`'s block iff each coordinate is in the block's range on its axis. -/
theorem mem_blk5 (t : Fin cfg1.N) (i : S50000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v50).slice (win1_5.rect t)).set ↔ _
  rw [View.set_slice_whole, Rect.mem_set_unit]
  exact Iff.rfl

/-- Every row lies in the block of the point numbered by its quotient by 2000. -/
theorem cover5 (i : S50000x40.Idx) :
    ∃ t : Fin cfg1.N, (cfg1.win 5).flush t = true ∧ i ∈ ((cfg1.win 5).blk t).view.set := by
  have hi0 : (i 0).val < 50000 := (i 0).isLt
  have hi1 : (i 1).val < 40 := (i 1).isLt
  have hN : (i 0).val / 2000 < cfg1.N := lt_of_lt_of_eq (by omega : (i 0).val / 2000 < 25) N_1.symm
  obtain ⟨h0, h1⟩ := idx1_5 ⟨(i 0).val / 2000, hN⟩
  refine ⟨⟨(i 0).val / 2000, hN⟩, flush1_5 _, ?_⟩
  rw [mem_blk5]
  intro a
  match a with
  | ⟨0, _⟩ =>
    show win1_5.index ⟨(i 0).val / 2000, hN⟩ 0 * 2000 ≤ (i 0).val ∧ (i 0).val < win1_5.index ⟨(i 0).val / 2000, hN⟩ 0 * 2000 + 2000
    rw [h0]
    show (i 0).val / 2000 * 2000 ≤ (i 0).val ∧ (i 0).val < (i 0).val / 2000 * 2000 + 2000
    omega
  | ⟨1, _⟩ =>
    show win1_5.index ⟨(i 0).val / 2000, hN⟩ 1 * 40 ≤ (i 1).val ∧ (i 1).val < win1_5.index ⟨(i 0).val / 2000, hN⟩ 1 * 40 + 40
    rw [h1]
    omega

/-- AFTER THE REGION the result array holds `O`. -/
theorem result_array (c : Dev nD) : (dat1 V c).arrAt 5 cfg1.N = tab (O V c) :=
  (dat1 V c).arrAt_eq_of_cover 5 (tab (O V c)) (fun t _ => flushed5 V c t) cover5

end Cert.KernelIdeal.Reg1

end
-- ==== Proof.LibRowScatter.lean ====
/-
  SCATTER-ADD OF ROWS THROUGH AN INDEX COLUMN. A table of `N` rows of `D` entries, shape `[N, D]`; scatter indices of
  shape `[E, 1]`, one row number per update row, the index vector along axis 1; updates of shape `[E, D]`. Update row
  `e` is aimed, entry by entry, at the table row its scatter index names: the updates' axis 1 is the window axis and
  goes to the table's axis 1, the table's axis 0 is the inserted axis the scatter index addresses.

  This file gives the dimension numbers of that scatter, general in the extents `N`, `E` and `D`, and proves
  `resultIdx_row`: the update at `(e, d')` lands on the table entry `(n, d)` exactly when the scatter index `idx[e, 0]`,
  read as a signed integer and NOT clamped, equals `n`, and `d' = d` (an index outside `[0, N)` lands nowhere). On the
  table's axis 0 the start is the scatter index and the window coordinate is `0`; on axis 1 the start is `0` and the
  window coordinate is `d'`, always inside the axis.
-/
import Idealize.ShloMosaic.Lib.ValueIdx

noncomputable section

open scoped BigOperators
open Idealize.ShloMosaic Idealize.ShloMosaic.ValueIdx

namespace Cert.Lib.RowScatter

/-! ## Where an update of the row scatter lands

A table of `N` rows of `D` entries, scatter indices `[E, 1]` (one row number per update row), updates `[E, D]`: update
row `e` is added, entry by entry, to the table row its scatter index names. -/

/-- Scatter into a table `[N, D]` at scatter indices `[E, 1]` of updates `[E, D]`: operand axis 0 is an inserted
    window axis and the target of the scatter index's one component; the updates' axis 1 is a window axis going to
    operand axis 1. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row scatter's start on operand axis 0 for update `(e, d')`: the scatter index `idx[e, 0]`, read signed. -/
theorem rowScatter_start_zero {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e d') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The row scatter's start on operand axis 1 is `0`: the scatter index has no component for it. -/
theorem rowScatter_start_one {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 1 = 0 := by
  unfold ScatterDims.start
  rw [dif_neg (fun h => absurd (congrArg Fin.val (List.mem_singleton.mp h)) Nat.one_ne_zero)]

/-- The row scatter's window coordinate on operand axis 0 is `0`: that axis is an inserted one. -/
theorem rowScatter_window_zero {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 0 = 0 := by
  unfold ScatterDims.window
  rw [dif_neg (by simp [ScatterDims.sKept, Shape.kept])]

/-- The row scatter's window coordinate on operand axis 1 is the update's coordinate on its axis 1. -/
theorem rowScatter_window_one {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 1 = d'.val := by
  unfold ScatterDims.window
  split
  · rfl
  · next h => exact absurd (by simp [ScatterDims.sKept, Shape.kept]) h

/-- WHERE THE ROW SCATTER'S UPDATE `(e, d')` LANDS: on `(n, d)` exactly when the scatter index `idx[e, 0]`, read
    signed, is `n` and `d' = d`. On axis 1 the start is `0` and the window coordinate `d'` is inside the axis. -/
theorem resultIdx_row {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) (n : Fin N) (d : Fin D) :
    (rowScatter N E D wf).resultIdx? (ix2 e d') idx = some (ix2 n d)
      ↔ ((idx (ix2 e 0)).toInt = (n.val : Int) ∧ d' = d) := by
  have hs0 := rowScatter_start_zero wf idx e d'
  have hs1 := rowScatter_start_one wf idx e d'
  have hw0 := rowScatter_window_zero wf e d'
  have hw1 := rowScatter_window_one wf e d'
  have hn := n.isLt
  have hd' := d'.isLt
  unfold ScatterDims.resultIdx?
  split
  · next h =>
    have h0 : 0 ≤ (rowScatter N E D wf).start (ix2 e d') idx 0 + ((rowScatter N E D wf).window (ix2 e d') 0 : Nat)
        ∧ (rowScatter N E D wf).start (ix2 e d') idx 0 + ((rowScatter N E D wf).window (ix2 e d') 0 : Nat) < (N : Int) := h 0
    rw [hs0, hw0] at h0
    constructor
    · intro hf
      have h1 : ((rowScatter N E D wf).start (ix2 e d') idx 0 + ((rowScatter N E D wf).window (ix2 e d') 0 : Nat)).toNat = n.val :=
        congrArg (fun f => (f 0).val) (Option.some.inj hf)
      have h2 : ((rowScatter N E D wf).start (ix2 e d') idx 1 + ((rowScatter N E D wf).window (ix2 e d') 1 : Nat)).toNat = d.val :=
        congrArg (fun f => (f 1).val) (Option.some.inj hf)
      rw [hs0, hw0] at h1
      rw [hs1, hw1] at h2
      refine ⟨by omega, Fin.ext (by omega)⟩
    · rintro ⟨hv, rfl⟩
      congr 1
      funext a
      refine Fin.ext ?_
      match a with
      | ⟨0, _⟩ =>
        show ((rowScatter N E D wf).start (ix2 e d') idx 0 + ((rowScatter N E D wf).window (ix2 e d') 0 : Nat)).toNat = n.val
        rw [hs0, hw0, hv]
        omega
      | ⟨1, _⟩ =>
        show ((rowScatter N E D wf).start (ix2 e d') idx 1 + ((rowScatter N E D wf).window (ix2 e d') 1 : Nat)).toNat = d'.val
        rw [hs1, hw1]
        omega
  · next h =>
    constructor
    · intro hf
      exact absurd hf (by simp)
    · rintro ⟨hv, rfl⟩
      refine absurd (fun a => ?_) h
      match a with
      | ⟨0, _⟩ =>
        show 0 ≤ (rowScatter N E D wf).start (ix2 e d') idx 0 + ((rowScatter N E D wf).window (ix2 e d') 0 : Nat)
          ∧ (rowScatter N E D wf).start (ix2 e d') idx 0 + ((rowScatter N E D wf).window (ix2 e d') 0 : Nat) < (N : Int)
        rw [hs0, hw0, hv]
        omega
      | ⟨1, _⟩ =>
        show 0 ≤ (rowScatter N E D wf).start (ix2 e d') idx 1 + ((rowScatter N E D wf).window (ix2 e d') 1 : Nat)
          ∧ (rowScatter N E D wf).start (ix2 e d') idx 1 + ((rowScatter N E D wf).window (ix2 e d') 1 : Nat) < ((D : Nat) : Int)
        rw [hs1, hw1]
        omega

end Cert.Lib.RowScatter

end
-- ==== Proof.LibRowGather.lean ====
/-
  A general lemma about `stablehlo.gather`: rows of a table taken at a column of start indices.

  For a table `x : [N, D]` and a column `idx : [E, 1]` of integer start indices, the gather with offset_dims `[1]`,
  collapsed_slice_dims `[0]`, start_index_map `[0]`, index_vector_dim `1` and slice_sizes `[1, D]` — what `take(x, idx, axis = 0)`
  of a two-dimensional table lowers to — has result `[E, D]`, and its entry `(e, d)` is the table's entry `(i, d)`, where `i` is
  the start index `idx (e, 0)` read as a signed integer and clamped into `[0, N - 1]`: a whole row of the table per start index.
-/
import Idealize.ShloMosaic.Lib.ValueIdx

noncomputable section

namespace Idealize.ShloMosaic.RowGather

open Idealize.ShloMosaic Idealize.ShloMosaic.ValueIdx

variable {α : Type}

/-- Those dimension numbers for a table `[N, D]`, start indices `[E, 1]` and result `[E, D]`; their conditions `wf` are
    decided on a program's literal shapes. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE GATHER READ AT `(e, d)`: the table at row `idx (e, 0)`, read signed and clamped into `[0, N - 1]`, and column `d`. -/
theorem gather_row_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N E D wf) x idx (ix2 e d)
      = x (ix2 ⟨min (idx (ix2 e (0 : Fin 1))).toInt.toNat (N - 1), by omega⟩ d) := by
  unfold Host.gather
  congr 1
  funext a
  refine Fin.ext ?_
  show (rowDims N E D wf).start (ix2 e d) idx a + (rowDims N E D wf).batchCoord (ix2 e d) a
    + (rowDims N E D wf).offCoord (ix2 e d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N E D wf).startIndexMap from List.mem_singleton.mpr rfl)]
    have hsi : (rowDims N E D wf).siIdx (ix2 e d) ⟨List.idxOf (⟨0, by omega⟩ : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have h1 : (⟨1, by omega⟩ : Fin 2) ∉ (rowDims N E D wf).startIndexMap :=
      fun h => Nat.one_ne_zero (congrArg Fin.val (List.mem_singleton.mp h))
    have hs : (rowDims N E D wf).start (ix2 e d) idx ⟨1, by omega⟩ = 0 := by
      unfold GatherDims.start; rw [dif_neg h1]
    rw [hs]
    have hk : (⟨1, by omega⟩ : Fin 2) ∈ (rowDims N E D wf).sKept :=
      (GatherDims.mem_sKept _ _).mpr
        ⟨fun h => Nat.one_ne_zero (congrArg Fin.val (List.mem_singleton.mp h)), List.not_mem_nil⟩
    unfold GatherDims.offCoord
    rw [dif_pos hk]
    simp only [Nat.zero_add]
    rfl

end Idealize.ShloMosaic.RowGather

end
-- ==== Proof.LibRowAggregate.lean ====
/-
  ROWS OF A TABLE ADDED TO AND READ THROUGH A COLUMN OF ROW NUMBERS, AT THE IDEAL INSTANCE.

  A table has `N` rows of `D` entries, shape `[N, D]`. A column `idx` of shape `[E, 1]` holds one integer per update
  (or result) row, of any bit width `w`, read as a SIGNED integer.

  * SCATTER-ADD (`scatterAdd_row_apply`). Updates of shape `[E, D]`; update row `e` is added, entry by entry, to the
    table row that `idx[e, 0]` names. The row number is NOT clamped: an update whose row number lies outside `[0, N)`
    is dropped. At the ideal instance floats are extended reals and the accumulation is the exact sum, so the result
    at `(n, d)` is the table's entry plus the sum of `upd[e, d]` over the update rows `e` whose row number is `n`
    (`landing idx n`) -- in whatever order the colliding updates are met, since the sum of extended reals over a
    finite set does not depend on an order.

  * GATHER (`gather_row_apply'`). The result `[E, D]` has, at `(e, d)`, the table's entry at row `srcRow idx e` and
    column `d`, where `srcRow idx e` is `idx[e, 0]` read signed and CLAMPED into `[0, N - 1]` (a negative row number
    reads row `0`, one past the end reads row `N - 1`). This holds for entries of any type.

  The asymmetry between the two (dropped against clamped) is that of the two operations themselves: a scatter ignores
  an update whose window falls outside the operand, a gather moves an out-of-bounds window back inside the operand.

  Both statements take the dimension numbers as a record `sd` / `gd` together with an equation saying that it is the
  row scatter / row gather of the two companion files; for a record whose fields are those literal lists the equation
  holds by `rfl`.
-/
import Idealize.ShloMosaic.Lib.ValueIdx
import Idealize.ShloMosaic.PureOps.Ideal
import proofs.«141840_j84146999263864_2_alg».proof.Proof.LibRowScatter
import proofs.«141840_j84146999263864_2_alg».proof.Proof.LibRowGather

noncomputable section

open scoped BigOperators
open Idealize.ShloMosaic Idealize.ShloMosaic.ValueIdx

namespace Cert.Lib.RowAggregate

/-- the table row that entry e of an index column names: read signed, clamped into [0, N − 1] -/
def srcRow {N E w : ℕ} (hN : 0 < N) (idx : IVec ⟨2, ![E, 1]⟩ w) (e : Fin E) : Fin N :=
  ⟨min (idx (ix2 e (0 : Fin 1))).toInt.toNat (N - 1), by omega⟩

/-- the update rows aimed at table row n: the index read signed and NOT clamped equals n -/
def landing {N E w : ℕ} (idx : IVec ⟨2, ![E, 1]⟩ w) (n : Fin N) : Finset (Fin E) :=
  Finset.univ.filter fun e => (idx (ix2 e (0 : Fin 1))).toInt = (n.val : Int)

/-- Membership in `landing`: update row `e` is aimed at table row `n` exactly when its row number, read signed, is `n`. -/
theorem mem_landing {N E w : ℕ} (idx : IVec ⟨2, ![E, 1]⟩ w) (n : Fin N) (e : Fin E) :
    e ∈ landing idx n ↔ (idx (ix2 e (0 : Fin 1))).toInt = (n.val : Int) := by
  unfold landing
  rw [Finset.mem_filter]
  exact ⟨fun h => h.2, fun h => ⟨Finset.mem_univ _, h⟩⟩

/-- THE SCATTER-ADD OF ROWS READ AT `(n, d)`: the table's entry plus the sum, over the update rows `e` whose row number
    is `n`, of `upd[e, d]`. The update indices `(e, d')` that land on `(n, d)` are exactly those with `e` aimed at `n`
    and `d' = d`, so `(e, d') ↦ e` and `e ↦ (e, d)` are inverse bijections between them and `landing idx n`, and the
    summands correspond. -/
theorem scatterAdd_row_apply {N E D w : ℕ} {φ : FTy} (sd : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1) (hsd : sd = Cert.Lib.RowScatter.rowScatter N E D wf)
    (x : FVec Ideal ⟨2, ![N, D]⟩ φ) (idx : IVec ⟨2, ![E, 1]⟩ w) (upd : FVec Ideal ⟨2, ![E, D]⟩ φ) (n : Fin N) (d : Fin D) :
    Host.scatterAdd (F := Ideal) sd x idx upd (ix2 n d) = x (ix2 n d) + ∑ e ∈ landing idx n, upd (ix2 e d) := by
  subst hsd
  show Ideal.hostScatterAdd (Cert.Lib.RowScatter.rowScatter N E D wf) x idx upd (ix2 n d) = _
  unfold Ideal.hostScatterAdd
  congr 1
  -- an update index that lands on `(n, d)`, in coordinates: its row is aimed at `n` and its column is `d`
  have key : ∀ j : (⟨2, ![E, D]⟩ : Shape).Idx,
      j ∈ Finset.univ.filter (fun j => (Cert.Lib.RowScatter.rowScatter N E D wf).resultIdx? j idx = some (ix2 n d)) →
      ∃ e : Fin E, j = ix2 e d ∧ e ∈ landing idx n := by
    intro j hj
    obtain ⟨e, d', rfl⟩ : ∃ (e : Fin E) (d' : Fin D), j = ix2 e d' := ⟨j 0, j 1, eq_ix2 j⟩
    obtain ⟨he, rfl⟩ := (Cert.Lib.RowScatter.resultIdx_row wf idx e d' n d).mp (Finset.mem_filter.mp hj).2
    exact ⟨e, rfl, (mem_landing idx n e).mpr he⟩
  refine Finset.sum_nbij' (fun j => (j 0 : Fin E)) (fun e => ix2 e d) ?_ ?_ ?_ ?_ ?_
  · intro j hj
    obtain ⟨e, rfl, he⟩ := key j hj
    exact he
  · intro e he
    exact Finset.mem_filter.mpr ⟨Finset.mem_univ _,
      (Cert.Lib.RowScatter.resultIdx_row wf idx e d n d).mpr ⟨(mem_landing idx n e).mp he, rfl⟩⟩
  · intro j hj
    obtain ⟨e, rfl, _⟩ := key j hj
    rfl
  · intro e _
    rfl
  · intro j hj
    obtain ⟨e, rfl, _⟩ := key j hj
    rfl

/-- THE GATHER OF ROWS READ AT `(e, d)`: the table at row `srcRow idx e` (the row number `idx[e, 0]` read signed and
    clamped into `[0, N - 1]`) and column `d`. -/
theorem gather_row_apply' {N E D w : ℕ} {α : Type} (hN : 0 < N) (gd : GatherDims ⟨2, ![N, D]⟩ ⟨2, ![E, 1]⟩ ⟨2, ![E, D]⟩)
    (wf : GatherDims.WF ⟨2, ![N, D]⟩ ⟨2, ![E, 1]⟩ ⟨2, ![E, D]⟩ [1] [0] [] [0] [] 1 ![1, D]) (hgd : gd = Idealize.ShloMosaic.RowGather.rowDims N E D wf)
    (x : (⟨2, ![N, D]⟩ : Shape).Idx → α) (idx : IVec ⟨2, ![E, 1]⟩ w) (e : Fin E) (d : Fin D) :
    Host.gather gd x idx (ix2 e d) = x (ix2 (srcRow hN idx e) d) := by
  subst hgd
  exact Idealize.ShloMosaic.RowGather.gather_row_apply hN wf x idx e d

/-! ## The one-dimensional cousin: entries of a vector read through a column of positions

A vector `x : [N]`, a column `idx : [E, 1]` of positions, result `[E]`: entry `e` of the result is the vector at position
`idx[e, 0]`, read signed and clamped into `[0, N - 1]` (the same `srcRow`, the vector being a table of `N` rows with no
column axis). In particular every entry of the result is SOME entry of the vector, and for that alone nothing about
the dimension numbers is needed. -/

/-- Every entry a gather of a vector `[N]` through an index column `[E, 1]` returns is some entry of the vector, whatever
    the dimension numbers: the gather reads the vector at a computed position, and a position of a vector is its one
    coordinate. -/
theorem gather_vec_mem {N E w : ℕ} {α : Type} (gd : GatherDims ⟨1, ![N]⟩ ⟨2, ![E, 1]⟩ ⟨1, ![E]⟩)
    (x : (⟨1, ![N]⟩ : Shape).Idx → α) (idx : IVec ⟨2, ![E, 1]⟩ w) (e : Fin E) :
    ∃ n : Fin N, Host.gather gd x idx (ix1 e) = x (ix1 n) :=
  ⟨gd.operandIdx (ix1 e) idx 0, congrArg x (eq_ix1 (gd.operandIdx (ix1 e) idx))⟩

/-- The dimension numbers of the gather of single entries of a vector `[N]` at a column `[E, 1]` of positions, result
    `[E]`: no offset axis, the vector's one axis collapsed and addressed by the position's one component, the index
    vector along axis 1, slices of one entry. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER OF ENTRIES OF A VECTOR READ AT `e`: the vector at position `srcRow idx e` (`idx[e, 0]` read signed and
    clamped into `[0, N - 1]`). On the vector's one axis the batching and the offset coordinates are `0` (it is a
    collapsed axis), and the start is the position clamped so that a slice of one entry fits. -/
theorem gather_vec_apply {N E w : ℕ} {α : Type} (hN : 0 < N) (gd : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hgd : gd = vecDims N E wf)
    (x : (⟨1, ![N]⟩ : Shape).Idx → α) (idx : IVec ⟨2, ![E, 1]⟩ w) (e : Fin E) :
    Host.gather gd x idx (ix1 e) = x (ix1 (srcRow hN idx e)) := by
  subst hgd
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowAggregate

end
-- ==== Proof.LibFinite.lean ====
/- A general lemma file: which operations of the ideal instance keep an extended real FINITE (a real number).

   The extended reals' sum and product are total, but the laws that move a factor across a sum hold only at
   finite entries, so a proof that uses such a law carries "every entry is a real" from the inputs through each
   stage. Here: sums, differences, products, maxima and minima of reals are real; so is a quotient by a nonzero
   real, a finite sum of reals, and the reciprocal square root of a positive real. -/
import Idealize.ShloMosaic.PureOps.Ideal

namespace Cert.Lib.Finite

open Idealize.ShloMosaic

/-- An extended real that is a real number. -/
def IsReal (x : EReal) : Prop := ∃ r : ℝ, x = (r : EReal)

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem max {x y : EReal} (hx : IsReal x) (hy : IsReal y) : IsReal (Max.max x y) := by
  rcases max_choice x y with h | h <;> rw [h] <;> assumption

theorem min {x y : EReal} (hx : IsReal x) (hy : IsReal y) : IsReal (Min.min x y) := by
  rcases min_choice x y with h | h <;> rw [h] <;> assumption

/-- A quotient of a real by a nonzero real. -/
theorem div_real {x : EReal} (hx : IsReal x) {c : ℝ} (hc : c ≠ 0) : IsReal (Ideal.div x (c : EReal)) := by
  rw [Ideal.div_coe hc]; exact mul hx (coe _)

/-- A finite sum of reals. -/
theorem sum {κ : Type} (s : Finset κ) (f : κ → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- The reciprocal square root of a positive real. -/
theorem rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

end Cert.Lib.Finite
-- ==== Proof.SageSpec.lean ====
/-
  Two mean-aggregation graph-convolution layers with an inference-time batch normalisation between them, written
  twice over the extended reals, and the proof that the two arrangements agree at real entries.

  Nodes `N`, edges `E`; edge `e` carries the features of its source node `s e` to the node it lands on, `L n` being
  the edges that land on `n`. `inv n` is the reciprocal degree, `x` the input features (`K` channels), `W1l, W1r` the two
  weight matrices of the first layer (indexed output channel first), `b1` its bias; `sc, μ, β` the per-channel scale,
  running mean and shift of the normalisation; `W2l, W2r, b2` the second layer onto `C` classes.

  * The first arrangement (`outRef`) aggregates the hidden features over the edges, scales by the reciprocal degree and
    THEN multiplies by `W2l`; the normalisation is `(r − μ)·sc + β`.
  * The second (`outK`) multiplies the hidden features by `W2l` FIRST and aggregates the products; the normalisation is
    `r·sc + (β − μ·sc)`, and the three summands of each layer are added in another order.

  Addition on the extended reals is commutative and associative without any hypothesis, so reordering summands is free.
  The two other differences are instances of distributivity, which fails at the infinities: `(r − μ)·sc = r·sc − μ·sc`
  and `(Σ_e Σ_j h·w)·inv = Σ_j ((Σ_e h)·inv)·w`. Both hold when every entry involved is a real number, and the proof
  carries "is a real" from the inputs through the first layer.
-/
import Idealize.ShloMosaic.PureOps.Ideal
import proofs.«141840_j84146999263864_2_alg».proof.Proof.LibFinite

noncomputable section

open scoped BigOperators

namespace Cert.SageSpec

open Cert.Lib.Finite

variable {E N K C : Type} [Fintype K] [Fintype C]

/-- The sum of `f` at the source nodes of the edges landing on `n`. -/
def nbr (L : N → Finset E) (s : E → N) (f : N → EReal) (n : N) : EReal := ∑ e ∈ L n, f (s e)

/-- First layer before the rectifier: aggregated features times `W1l`, plus bias, plus own features times `W1r`. -/
def pre (L : N → Finset E) (s : E → N) (inv : N → EReal) (x : N → K → EReal) (W1l : K → K → EReal) (b1 : K → EReal)
    (W1r : K → K → EReal) (n : N) (j : K) : EReal :=
  ((∑ k, (nbr L s (fun m => x m k) n * inv n) * W1l j k) + b1 j) + ∑ k, x n k * W1r j k

/-- The same three summands in the order own-features second, bias last. -/
def preK (L : N → Finset E) (s : E → N) (inv : N → EReal) (x : N → K → EReal) (W1l : K → K → EReal) (b1 : K → EReal)
    (W1r : K → K → EReal) (n : N) (j : K) : EReal :=
  ((∑ k, (nbr L s (fun m => x m k) n * inv n) * W1l j k) + ∑ k, x n k * W1r j k) + b1 j

/-- Hidden features, normalisation as `(r − μ)·sc + β`. -/
def hid (L : N → Finset E) (s : E → N) (inv : N → EReal) (x : N → K → EReal) (W1l : K → K → EReal) (b1 : K → EReal)
    (W1r : K → K → EReal) (sc μ β : K → EReal) (n : N) (j : K) : EReal :=
  (max (pre L s inv x W1l b1 W1r n j) 0 - μ j) * sc j + β j

/-- Hidden features, normalisation as `r·sc + (β − μ·sc)`. -/
def hidK (L : N → Finset E) (s : E → N) (inv : N → EReal) (x : N → K → EReal) (W1l : K → K → EReal) (b1 : K → EReal)
    (W1r : K → K → EReal) (sc μ β : K → EReal) (n : N) (j : K) : EReal :=
  max (preK L s inv x W1l b1 W1r n j) 0 * sc j + (β j - μ j * sc j)

/-- Second layer: aggregate, scale, then multiply by `W2l`. -/
def outRef (L : N → Finset E) (s : E → N) (inv : N → EReal) (h : N → K → EReal) (W2l : C → K → EReal) (b2 : C → EReal)
    (W2r : C → K → EReal) (n : N) (c : C) : EReal :=
  ((∑ j, (nbr L s (fun m => h m j) n * inv n) * W2l c j) + b2 c) + ∑ j, h n j * W2r c j

/-- Second layer: multiply by `W2l` first, then aggregate the products and scale. -/
def outK (L : N → Finset E) (s : E → N) (inv : N → EReal) (h : N → K → EReal) (W2l : C → K → EReal) (b2 : C → EReal)
    (W2r : C → K → EReal) (n : N) (c : C) : EReal :=
  ((∑ j, h n j * W2r c j) + nbr L s (fun m => ∑ j, h m j * W2l c j) n * inv n) + b2 c

/-- The coercion of a finite sum of reals is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem preK_eq_pre (L : N → Finset E) (s : E → N) (inv : N → EReal) (x : N → K → EReal) (W1l : K → K → EReal)
    (b1 : K → EReal) (W1r : K → K → EReal) (n : N) (j : K) :
    preK L s inv x W1l b1 W1r n j = pre L s inv x W1l b1 W1r n j := by
  unfold preK pre
  exact add_right_comm _ _ _

theorem nbr_isReal (L : N → Finset E) (s : E → N) (f : N → EReal) (hf : ∀ m, IsReal (f m)) (n : N) :
    IsReal (nbr L s f n) :=
  Cert.Lib.Finite.sum _ _ fun e _ => hf (s e)

theorem pre_isReal (L : N → Finset E) (s : E → N) (inv : N → EReal) (x : N → K → EReal) (W1l : K → K → EReal)
    (b1 : K → EReal) (W1r : K → K → EReal) (hinv : ∀ n, IsReal (inv n)) (hx : ∀ n k, IsReal (x n k))
    (hl : ∀ j k, IsReal (W1l j k)) (hb : ∀ j, IsReal (b1 j)) (hr : ∀ j k, IsReal (W1r j k)) (n : N) (j : K) :
    IsReal (pre L s inv x W1l b1 W1r n j) := by
  unfold pre
  refine add (add (Cert.Lib.Finite.sum _ _ fun k _ => mul (mul (nbr_isReal L s _ (fun m => hx m k) n) (hinv n)) (hl j k)) (hb j))
    (Cert.Lib.Finite.sum _ _ fun k _ => mul (hx n k) (hr j k))

/-- The two spellings of the normalisation agree at real entries. -/
theorem norm_eq {r μ sc β : EReal} (hr : IsReal r) (hμ : IsReal μ) (hs : IsReal sc) (hβ : IsReal β) :
    r * sc + (β - μ * sc) = (r - μ) * sc + β := by
  obtain ⟨a, rfl⟩ := hr; obtain ⟨b, rfl⟩ := hμ; obtain ⟨c, rfl⟩ := hs; obtain ⟨d, rfl⟩ := hβ
  rw [← EReal.coe_mul, ← EReal.coe_mul, ← EReal.coe_sub, ← EReal.coe_sub, ← EReal.coe_add, ← EReal.coe_mul, ← EReal.coe_add]
  exact congrArg _ (by ring)

theorem hidK_eq_hid (L : N → Finset E) (s : E → N) (inv : N → EReal) (x : N → K → EReal) (W1l : K → K → EReal)
    (b1 : K → EReal) (W1r : K → K → EReal) (sc μ β : K → EReal) (hinv : ∀ n, IsReal (inv n)) (hx : ∀ n k, IsReal (x n k))
    (hl : ∀ j k, IsReal (W1l j k)) (hb : ∀ j, IsReal (b1 j)) (hr : ∀ j k, IsReal (W1r j k)) (hsc : ∀ j, IsReal (sc j))
    (hμ : ∀ j, IsReal (μ j)) (hβ : ∀ j, IsReal (β j)) (n : N) (j : K) :
    hidK L s inv x W1l b1 W1r sc μ β n j = hid L s inv x W1l b1 W1r sc μ β n j := by
  unfold hidK hid
  rw [preK_eq_pre]
  exact norm_eq (Cert.Lib.Finite.max (pre_isReal L s inv x W1l b1 W1r hinv hx hl hb hr n j) zero) (hμ j) (hsc j) (hβ j)

theorem hid_isReal (L : N → Finset E) (s : E → N) (inv : N → EReal) (x : N → K → EReal) (W1l : K → K → EReal)
    (b1 : K → EReal) (W1r : K → K → EReal) (sc μ β : K → EReal) (hinv : ∀ n, IsReal (inv n)) (hx : ∀ n k, IsReal (x n k))
    (hl : ∀ j k, IsReal (W1l j k)) (hb : ∀ j, IsReal (b1 j)) (hr : ∀ j k, IsReal (W1r j k)) (hsc : ∀ j, IsReal (sc j))
    (hμ : ∀ j, IsReal (μ j)) (hβ : ∀ j, IsReal (β j)) (n : N) (j : K) :
    IsReal (hid L s inv x W1l b1 W1r sc μ β n j) := by
  unfold hid
  exact add (mul (sub (Cert.Lib.Finite.max (pre_isReal L s inv x W1l b1 W1r hinv hx hl hb hr n j) zero) (hμ j)) (hsc j)) (hβ j)

/-- Multiplying by the weights before or after the edge sum, at real entries. -/
theorem agg_swap (T : Finset E) (s : E → N) (h : N → K → EReal) (w : K → EReal) (iv : EReal)
    (hh : ∀ m j, IsReal (h m j)) (hw : ∀ j, IsReal (w j)) (hiv : IsReal iv) :
    (∑ e ∈ T, ∑ j, h (s e) j * w j) * iv = ∑ j, ((∑ e ∈ T, h (s e) j) * iv) * w j := by
  classical
  choose hr hhr using hh
  choose wr hwr using hw
  obtain ⟨v, rfl⟩ := hiv
  simp only [hhr, hwr, ← EReal.coe_mul, ← coe_sum]
  refine congrArg _ ?_
  simp only [Finset.sum_mul]
  rw [Finset.sum_comm]
  exact Finset.sum_congr rfl fun j _ => Finset.sum_congr rfl fun e _ => by ring

theorem outK_eq_outRef (L : N → Finset E) (s : E → N) (inv : N → EReal) (h : N → K → EReal) (W2l : C → K → EReal)
    (b2 : C → EReal) (W2r : C → K → EReal) (hinv : ∀ n, IsReal (inv n)) (hh : ∀ m j, IsReal (h m j))
    (hl : ∀ c j, IsReal (W2l c j)) (n : N) (c : C) :
    outK L s inv h W2l b2 W2r n c = outRef L s inv h W2l b2 W2r n c := by
  unfold outK outRef nbr
  rw [agg_swap (L n) s h (W2l c) (inv n) hh (hl c) (hinv n), add_comm (∑ j, h n j * W2r c j), add_right_comm]

/-- THE TWO ARRANGEMENTS AGREE when every float input, the reciprocal degrees and the normalisation's scale are reals. -/
theorem kernel_eq_reference (L : N → Finset E) (s : E → N) (inv : N → EReal) (x : N → K → EReal) (W1l : K → K → EReal)
    (b1 : K → EReal) (W1r : K → K → EReal) (sc μ β : K → EReal) (W2l : C → K → EReal) (b2 : C → EReal) (W2r : C → K → EReal)
    (hinv : ∀ n, IsReal (inv n)) (hx : ∀ n k, IsReal (x n k))
    (hl : ∀ j k, IsReal (W1l j k)) (hb : ∀ j, IsReal (b1 j)) (hr : ∀ j k, IsReal (W1r j k)) (hsc : ∀ j, IsReal (sc j))
    (hμ : ∀ j, IsReal (μ j)) (hβ : ∀ j, IsReal (β j)) (h2l : ∀ c j, IsReal (W2l c j)) (n : N) (c : C) :
    outK L s inv (hidK L s inv x W1l b1 W1r sc μ β) W2l b2 W2r n c
      = outRef L s inv (hid L s inv x W1l b1 W1r sc μ β) W2l b2 W2r n c := by
  have e : hidK L s inv x W1l b1 W1r sc μ β = hid L s inv x W1l b1 W1r sc μ β :=
    funext fun m => funext fun j => hidK_eq_hid L s inv x W1l b1 W1r sc μ β hinv hx hl hb hr hsc hμ hβ m j
  rw [e]
  exact outK_eq_outRef L s inv _ W2l b2 W2r hinv
    (fun m j => hid_isReal L s inv x W1l b1 W1r sc μ β hinv hx hl hb hr hsc hμ hβ m j) h2l n c

end Cert.SageSpec

end
-- ==== Proof.Params.lean ====
/-
  The graph and the parameter arrays of the two layers, named once, as functions of the twelve argument arrays.

  The edge list is a 2 × 800000 array of node numbers: row 0 the source of each edge, row 1 the node it lands on.
  A source number is read like a Python index (a negative number counts from the end) and then clamped into the
  table; a landing number outside [0, 50000) drops the edge. `L` and `s` are that reading, taken from the two index
  columns the reference program builds; `inv` is its reciprocal degree max(deg, 1)⁻¹ and `sc` its normalisation scale
  γ / √(σ² + ε). The weight matrices are indexed output channel first, as they are given.
-/
import proofs.«141840_j84146999263864_2_alg».proof.Proof.Gen.ReferenceIdeal.Read
import proofs.«141840_j84146999263864_2_alg».proof.Proof.LibRowAggregate
import proofs.«141840_j84146999263864_2_alg».proof.Proof.SageSpec

noncomputable section

namespace Cert.Params

open Idealize.ShloMosaic Idealize.ShloMosaic.ValueIdx Cert.ReferenceIdeal Cert.ReferenceIdeal.Read Cert.Lib.RowAggregate

/-- The edges landing on node `n`. -/
def L (x1 : (⟨S2x800000, .i32⟩ : BufTy).Contents (Elt Ideal)) (n : Fin 50000) : Finset (Fin 800000) :=
  landing (N := 50000) (val_main_v20 (F := Ideal) x1) n

/-- The source node of edge `e`. -/
def s (x1 : (⟨S2x800000, .i32⟩ : BufTy).Contents (Elt Ideal)) (e : Fin 800000) : Fin 50000 :=
  srcRow (N := 50000) (by decide) (val_main_v17 (F := Ideal) x1) e

/-- The reciprocal degree of node `n`. -/
def inv (x1 : (⟨S2x800000, .i32⟩ : BufTy).Contents (Elt Ideal)) (n : Fin 50000) : EReal :=
  val_main_v11 (F := Ideal) x1 (ix1 n)

/-- The normalisation's scale of channel `j`. -/
def sc (x5 x8 : (⟨S128, .f32⟩ : BufTy).Contents (Elt Ideal)) (j : Fin 128) : EReal :=
  val_main_v41 (F := Ideal) x5 x8 (ix1 j)

/-- A matrix read by coordinates. -/
def mat {A B : ℕ} (w : (⟨2, ![A, B]⟩ : Shape).Idx → EReal) (a : Fin A) (b : Fin B) : EReal := w (ix2 a b)

/-- A vector read by its coordinate. -/
def vec {A : ℕ} (v : (⟨1, ![A]⟩ : Shape).Idx → EReal) (a : Fin A) : EReal := v (ix1 a)

end Cert.Params

end
-- ==== Proof.RefSide.lean ====
/-
  The reference program read at an index.

  The reference computes two mean-aggregation graph-convolution layers with an inference-time batch normalisation
  between them. Each of its operations is read at an index here, outermost first, until only the argument arrays remain:
  a scatter-add of gathered rows is the sum over the edges landing on a node of the table's row at the edge's source,
  a broadcast column reads its vector, a transposed weight matrix reads the matrix with its coordinates exchanged, and
  a contraction is the sum over the 128 channels. The result is the specification's first arrangement
  (aggregate, scale by the reciprocal degree, then multiply by the weights).

  Two facts about the parameters the specification is stated over follow: the reciprocal degree of every node and the
  normalisation's scale of every channel are real numbers.
-/
import proofs.«141840_j84146999263864_2_alg».proof.Proof.Params
import Idealize.ShloMosaic.Lib.IdealHost

noncomputable section

open scoped BigOperators

namespace Cert.RefSide

open Idealize.ShloMosaic Idealize.ShloMosaic.ValueIdx Cert.ReferenceIdeal Cert.ReferenceIdeal.Read
open Cert.SageSpec Cert.Params Cert.Lib.RowAggregate

/-! ## Rows gathered through one index column and added through another -/

/-- Rows of a table `t` gathered at the (clamped) row numbers of `idxS` and then added into a zero table at the row
    numbers of `idxL`: entry `(n, k)` is the sum, over the update rows aimed at `n`, of the table's entry in column
    `k` of the row the update was gathered from. -/
theorem gather_scatter_apply (z t : (⟨S50000x128, .f32⟩ : BufTy).Contents (Elt Ideal))
    (idxS idxL : (⟨S800000x1, .i32⟩ : BufTy).Contents (Elt Ideal)) (hz : ∀ i, z i = 0) (n : Fin 50000) (k : Fin 128) :
    Host.scatterAdd (F := Ideal) (φ := .f32) scatter_S50000x128_S800000x1_S800000x128_1_0_0_1 z idxL
        (Host.gather gather_S50000x128_S800000x1_S800000x128_1_0_n_n_0_1_1128 t idxS) (ix2 n k)
      = ∑ e ∈ landing (N := 50000) idxL n, t (ix2 (srcRow (N := 50000) (by decide) idxS e) k) := by
  rw [scatterAdd_row_apply scatter_S50000x128_S800000x1_S800000x128_1_0_0_1
    Facts₀.scatter_S50000x128_S800000x1_S800000x128_1_0_0_1_wf rfl, hz, zero_add]
  refine Finset.sum_congr rfl fun e _ => ?_
  exact gather_row_apply' (by decide) gather_S50000x128_S800000x1_S800000x128_1_0_n_n_0_1_1128
    Facts₀.gather_S50000x128_S800000x1_S800000x128_1_0_n_n_0_1_1128_wf rfl t idxS e k

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 x7 x8 : (⟨S128, .f32⟩ : BufTy).Contents (Elt Ideal))
  (x9 : (⟨S40x128, .f32⟩ : BufTy).Contents (Elt Ideal)) (x10 : (⟨S40, .f32⟩ : BufTy).Contents (Elt Ideal))
  (x11 : (⟨S40x128, .f32⟩ : BufTy).Contents (Elt Ideal))

/-! ## The zero tables the three aggregations and the rectifier start from -/

theorem v19_zero (i : S50000x128.Idx) : val_main_v19 (F := Ideal) i = (0 : EReal) := by
  rw [val_main_v19_apply, val_main_cst_4_apply, Ideal.ofBits_def, Ideal.ofBits_zero_f32]

theorem v33_zero (i : S50000x128.Idx) : val_main_v33 (F := Ideal) i = (0 : EReal) := by
  rw [val_main_v33_apply, val_main_cst_5_apply, Ideal.ofBits_def, Ideal.ofBits_zero_f32]

theorem v55_zero (i : S50000x128.Idx) : val_main_v55 (F := Ideal) i = (0 : EReal) := by
  rw [val_main_v55_apply, val_main_cst_9_apply, Ideal.ofBits_def, Ideal.ofBits_zero_f32]

/-! ## The columns broadcast over the rows, and the reciprocal degree broadcast over the channels -/

/-- The reciprocal degrees, broadcast over the 128 channels (first layer). -/
theorem v23_apply (n : Fin 50000) (k : Fin 128) : val_main_v23 (F := Ideal) x1 (ix2 n k) = inv x1 n := by
  rw [val_main_v23_apply, val_main_v22_apply]
  exact congrArg (val_main_v11 (F := Ideal) x1) (funext fun a => match a with | ⟨0, _⟩ => rfl)

/-- The reciprocal degrees, broadcast over the 128 channels (second layer). -/
theorem v59_apply (n : Fin 50000) (k : Fin 128) : val_main_v59 (F := Ideal) x1 (ix2 n k) = inv x1 n := by
  rw [val_main_v59_apply, val_main_v58_apply]
  exact congrArg (val_main_v11 (F := Ideal) x1) (funext fun a => match a with | ⟨0, _⟩ => rfl)

/-- The first layer's bias, broadcast over the nodes. -/
theorem v28_apply (n : Fin 50000) (j : Fin 128) : val_main_v28 (F := Ideal) x3 (ix2 n j) = vec x3 j := by
  rw [val_main_v28_apply, val_main_v27_apply]
  exact congrArg x3 (funext fun a => match a with | ⟨0, _⟩ => rfl)

/-- The running mean, broadcast over the nodes. -/
theorem v36_apply (n : Fin 50000) (j : Fin 128) : val_main_v36 (F := Ideal) x7 (ix2 n j) = vec x7 j := by
  rw [val_main_v36_apply, val_main_v35_apply]
  exact congrArg x7 (funext fun a => match a with | ⟨0, _⟩ => rfl)

/-- The normalisation's scale, broadcast over the nodes. -/
theorem v43_apply (n : Fin 50000) (j : Fin 128) : val_main_v43 (F := Ideal) x5 x8 (ix2 n j) = sc x5 x8 j := by
  rw [val_main_v43_apply, val_main_v42_apply]
  exact congrArg (val_main_v41 (F := Ideal) x5 x8) (funext fun a => match a with | ⟨0, _⟩ => rfl)

/-- The normalisation's shift, broadcast over the nodes. -/
theorem v46_apply (n : Fin 50000) (j : Fin 128) : val_main_v46 (F := Ideal) x6 (ix2 n j) = vec x6 j := by
  rw [val_main_v46_apply, val_main_v45_apply]
  exact congrArg x6 (funext fun a => match a with | ⟨0, _⟩ => rfl)

/-- The second layer's bias, broadcast over the nodes. -/
theorem v64_apply (n : Fin 50000) (c : Fin 40) : val_main_v64 (F := Ideal) x10 (ix2 n c) = vec x10 c := by
  rw [val_main_v64_apply, val_main_v63_apply]
  exact congrArg x10 (funext fun a => match a with | ⟨0, _⟩ => rfl)

/-! ## The first layer -/

/-- The first aggregation: the sum of the input features over the edges landing on `n`, read at their sources. -/
theorem ref_agg1 (n : Fin 50000) (k : Fin 128) :
    val_main_v21 (F := Ideal) x0 x1 (ix2 n k) = nbr (L x1) (s x1) (fun m => mat x0 m k) n := by
  unfold val_main_v21 val_main_v18
  exact gather_scatter_apply (val_main_v19 (F := Ideal)) x0 (val_main_v17 (F := Ideal) x1) (val_main_v20 (F := Ideal) x1)
    v19_zero n k

/-- The aggregated features scaled by the reciprocal degree. -/
theorem v24_apply (n : Fin 50000) (k : Fin 128) :
    val_main_v24 (F := Ideal) x0 x1 (ix2 n k) = nbr (L x1) (s x1) (fun m => mat x0 m k) n * inv x1 n := by
  rw [val_main_v24_apply, Ideal.mulf_def, ref_agg1, v23_apply]

/-- The scaled aggregate times the first weight matrix (given output channel first, so read transposed). -/
theorem v26_apply (n : Fin 50000) (j : Fin 128) :
    val_main_v26 (F := Ideal) x0 x1 x2 (ix2 n j)
      = ∑ k : Fin 128, (nbr (L x1) (s x1) (fun m => mat x0 m k) n * inv x1 n) * mat x2 j k := by
  rw [val_main_v26_apply]
  refine Finset.sum_congr rfl fun k _ => ?_
  have el : lidx_main_v26 (ix2 n j) k = ix2 n k :=
    funext fun a => match a with | ⟨0, _⟩ => rfl | ⟨1, _⟩ => rfl
  have er : idx_main_v25 (ridx_main_v26 (ix2 n j) k) = ix2 j k :=
    funext fun a => match a with | ⟨0, _⟩ => rfl | ⟨1, _⟩ => rfl
  rw [el, val_main_v25_apply, er, v24_apply]
  rfl

/-- The node's own features times the second weight matrix. -/
theorem v31_apply (n : Fin 50000) (j : Fin 128) :
    val_main_v31 (F := Ideal) x0 x4 (ix2 n j) = ∑ k : Fin 128, mat x0 n k * mat x4 j k := by
  rw [val_main_v31_apply]
  refine Finset.sum_congr rfl fun k _ => ?_
  have el : lidx_main_v31 (ix2 n j) k = ix2 n k :=
    funext fun a => match a with | ⟨0, _⟩ => rfl | ⟨1, _⟩ => rfl
  have er : idx_main_v30 (ridx_main_v31 (ix2 n j) k) = ix2 j k :=
    funext fun a => match a with | ⟨0, _⟩ => rfl | ⟨1, _⟩ => rfl
  rw [el, val_main_v30_apply, er]
  rfl

/-- The first layer before the rectifier. -/
theorem v32_apply (n : Fin 50000) (j : Fin 128) :
    val_main_v32 (F := Ideal) x0 x1 x2 x3 x4 (ix2 n j)
      = pre (L x1) (s x1) (inv x1) (mat x0) (mat x2) (vec x3) (mat x4) n j := by
  rw [val_main_v32_apply, val_main_v29_apply, v26_apply, v28_apply, v31_apply]
  rfl

/-- The hidden features: rectifier, then the normalisation as (r − μ)·sc + β. -/
theorem v47_apply (n : Fin 50000) (j : Fin 128) :
    val_main_v47 (F := Ideal) x0 x1 x2 x3 x4 x5 x6 x7 x8 (ix2 n j)
      = hid (L x1) (s x1) (inv x1) (mat x0) (mat x2) (vec x3) (mat x4) (sc x5 x8) (vec x7) (vec x6) n j := by
  rw [val_main_v47_apply, val_main_v44_apply, val_main_v37_apply, val_main_v34_apply, v32_apply, v33_zero, v36_apply,
    v43_apply, v46_apply]
  rfl

/-! ## The second layer -/

/-- The second aggregation: the sum of the hidden features over the edges landing on `n`. Its two index columns are
    the first aggregation's, built a second time by the same operations. -/
theorem v57_apply (n : Fin 50000) (j : Fin 128) :
    val_main_v57 (F := Ideal) x0 x1 x2 x3 x4 x5 x6 x7 x8 (ix2 n j)
      = nbr (L x1) (s x1)
          (fun m => hid (L x1) (s x1) (inv x1) (mat x0) (mat x2) (vec x3) (mat x4) (sc x5 x8) (vec x7) (vec x6) m j) n := by
  unfold val_main_v57 val_main_v54
  have e53 : val_main_v53 (F := Ideal) x1 = val_main_v17 (F := Ideal) x1 := rfl
  have e56 : val_main_v56 (F := Ideal) x1 = val_main_v20 (F := Ideal) x1 := rfl
  rw [e53, e56, gather_scatter_apply _ _ _ _ v55_zero n j]
  exact Finset.sum_congr rfl fun e _ => v47_apply x0 x1 x2 x3 x4 x5 x6 x7 x8 _ j

/-- The aggregated hidden features scaled by the reciprocal degree. -/
theorem v60_apply (n : Fin 50000) (j : Fin 128) :
    val_main_v60 (F := Ideal) x0 x1 x2 x3 x4 x5 x6 x7 x8 (ix2 n j)
      = nbr (L x1) (s x1)
          (fun m => hid (L x1) (s x1) (inv x1) (mat x0) (mat x2) (vec x3) (mat x4) (sc x5 x8) (vec x7) (vec x6) m j) n
        * inv x1 n := by
  rw [val_main_v60_apply, Ideal.mulf_def, v57_apply, v59_apply]

/-- The scaled aggregate times the second layer's first weight matrix. -/
theorem v62_apply (n : Fin 50000) (c : Fin 40) :
    val_main_v62 (F := Ideal) x0 x1 x2 x3 x4 x5 x6 x7 x8 x9 (ix2 n c)
      = ∑ j : Fin 128, (nbr (L x1) (s x1)
          (fun m => hid (L x1) (s x1) (inv x1) (mat x0) (mat x2) (vec x3) (mat x4) (sc x5 x8) (vec x7) (vec x6) m j) n
        * inv x1 n) * mat x9 c j := by
  rw [val_main_v62_apply]
  refine Finset.sum_congr rfl fun k _ => ?_
  have el : lidx_main_v62 (ix2 n c) k = ix2 n k :=
    funext fun a => match a with | ⟨0, _⟩ => rfl | ⟨1, _⟩ => rfl
  have er : idx_main_v61 (ridx_main_v62 (ix2 n c) k) = ix2 c k :=
    funext fun a => match a with | ⟨0, _⟩ => rfl | ⟨1, _⟩ => rfl
  rw [el, val_main_v61_apply, er, v60_apply]
  rfl

/-- The node's own hidden features times the second layer's second weight matrix. -/
theorem v67_apply (n : Fin 50000) (c : Fin 40) :
    val_main_v67 (F := Ideal) x0 x1 x2 x3 x4 x5 x6 x7 x8 x11 (ix2 n c)
      = ∑ j : Fin 128, hid (L x1) (s x1) (inv x1) (mat x0) (mat x2) (vec x3) (mat x4) (sc x5 x8) (vec x7) (vec x6) n j
          * mat x11 c j := by
  rw [val_main_v67_apply]
  refine Finset.sum_congr rfl fun k _ => ?_
  have el : lidx_main_v67 (ix2 n c) k = ix2 n k :=
    funext fun a => match a with | ⟨0, _⟩ => rfl | ⟨1, _⟩ => rfl
  have er : idx_main_v66 (ridx_main_v67 (ix2 n c) k) = ix2 c k :=
    funext fun a => match a with | ⟨0, _⟩ => rfl | ⟨1, _⟩ => rfl
  rw [el, val_main_v66_apply, er, v47_apply]
  rfl

/-- THE REFERENCE'S RESULT at node `n` and class `c` is the specification's first arrangement. -/
theorem ref_out (n : Fin 50000) (c : Fin 40) :
    val_main_v68 (F := Ideal) x0 x1 x2 x3 x4 x5 x6 x7 x8 x9 x10 x11 (ix2 n c)
      = outRef (L x1) (s x1) (inv x1)
          (hid (L x1) (s x1) (inv x1) (mat x0) (mat x2) (vec x3) (mat x4) (sc x5 x8) (vec x7) (vec x6))
          (mat x9) (vec x10) (mat x11) n c := by
  rw [val_main_v68_apply, val_main_v65_apply, v62_apply, v64_apply, v67_apply]
  rfl

/-! ## The reciprocal degree is a real number -/

open Cert.Lib.Finite

/-- For any extended real `d`, `1 / max d 1` is a real: the divisor is at least one, so it is not zero; at `⊤` the
    quotient is `1 · ⊤⁻¹ = 0`, and at a real `r ≥ 1` it is `1 · r⁻¹`. -/
theorem div_one_max_isReal (d : EReal) : IsReal (Ideal.div 1 (max d 1)) := by
  have h1 : (1 : EReal) ≤ max d 1 := le_max_right d 1
  generalize max d 1 = m at h1 ⊢
  induction m using EReal.rec with
  | bot => exact absurd (le_bot_iff.mp h1) (EReal.coe_ne_bot 1)
  | coe r =>
    have hr : (1 : ℝ) ≤ r := by exact_mod_cast h1
    exact div_real ⟨1, rfl⟩ (by linarith : r ≠ 0)
  | top =>
    refine ⟨0, ?_⟩
    unfold Ideal.div
    rw [if_neg EReal.top_ne_zero, EReal.inv_top, mul_zero]
    rfl

/-- The reciprocal degree as the reference computes it: one over the larger of the degree and one. -/
theorem inv_eq (n : Fin 50000) :
    inv x1 n = Ideal.div 1 (max (val_main_v7 (F := Ideal) x1 (ix1 n)) 1) := by
  unfold Params.inv
  rw [val_main_v11_apply, val_main_v10_apply, val_main_cst_2_apply, val_main_v9_apply, val_main_v8_apply,
    val_main_cst_1_apply]
  simp only [Ideal.hostDivf_def, Ideal.maximumf_def, Ideal.ofBits_def, Ideal.ofBits_one_f32]

theorem inv_isReal (n : Fin 50000) : IsReal (inv x1 n) := by
  rw [inv_eq]
  exact div_one_max_isReal _

/-! ## The normalisation's scale is a real number -/

/-- The word `0x3727C5AC` is a normal single-precision pattern with a clear sign bit: a positive real. -/
theorem eps_pos : ∃ r : ℝ, 0 < r ∧ Ideal.ofBits .f32 0x3727C5AC#32 = (r : EReal) := by
  refine ⟨_, ?_, by simp [Ideal.ofBits, Ideal.ieee, -EReal.coe_mul]; rfl⟩
  positivity

/-- The scale as the reference computes it: γ over the square root of the running variance plus the literal. -/
theorem sc_eq (j : Fin 128) :
    sc x5 x8 j = Ideal.div (x5 (ix1 j)) (Ideal.sqrt (x8 (ix1 j) + Ideal.ofBits .f32 0x3727C5AC#32)) := by
  unfold sc
  rw [val_main_v41_apply, val_main_v40_apply, val_main_v39_apply, val_main_v38_apply, val_main_cst_6_apply]
  rfl

theorem sc_isReal (hγ : ∀ i, IsReal (x5 i)) (hσ : ∀ i, IsReal (x8 i)) (hpos : ∀ i, (0 : EReal) ≤ x8 i) (j : Fin 128) :
    IsReal (sc x5 x8 j) := by
  obtain ⟨r, hr, he⟩ := eps_pos
  obtain ⟨a, ha⟩ := hσ (ix1 j)
  have ha0 : 0 ≤ a := by
    have h := hpos (ix1 j)
    rw [ha] at h
    exact_mod_cast h
  have hpos' : 0 < a + r := add_pos_of_nonneg_of_pos ha0 hr
  have hs : sc x5 x8 j = Ideal.div (x5 (ix1 j)) ((Real.sqrt (a + r) : ℝ) : EReal) := by
    rw [sc_eq, he, ha, ← EReal.coe_add, Ideal.sqrt_coe, if_neg (not_lt.mpr hpos'.le)]
  rw [hs]
  exact div_real (hγ (ix1 j)) (ne_of_gt (Real.sqrt_pos.mpr hpos'))

end Cert.RefSide

end
-- ==== Proof.KernelHost.lean ====
/-
  What the host stretches of the idealized kernel's @main leave in the buffers the two regions read, as entries.

  Before the first region the host computes, from the twelve arguments: the landing and source columns of the edge
  list, the degrees and their reciprocals, the neighbour sums of the input features (a gather of rows through the
  source column, scatter-added through the landing column into a zero table), the normalisation's scale γ/√(σ²+ε) and
  shift β − μ·scale, and re-laid copies of the small operands (transposed weight matrices, vectors as rows, the
  reciprocal degrees as a column). These are the same operations, on the same arguments, as the first lines of the
  reference program, so each buffer is the reference's stage of the same name-by-meaning; the entries then read as the
  reference's do. Between the regions the host gathers and scatter-adds the projected rows the first region wrote.
-/
import proofs.«141840_j84146999263864_2_alg».proof.Proof.KernelIdealFrameP
import proofs.«141840_j84146999263864_2_alg».proof.Proof.RefSide
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx Idealize.ShloMosaic.StableHlo

namespace Cert.KernelIdeal.KHost

open Cert.KernelIdeal Cert.KernelIdeal.Gen Cert.KernelIdeal.GenP
open Cert.ReferenceIdeal.Read (val_main_v1 val_main_v3 val_main_v11 val_main_v17 val_main_v20 val_main_v21 val_main_v25 val_main_v30 val_main_v41 val_main_v61 val_main_v66)

variable (m : (ℓ : Loc nD τ sig) → Buf (Elt Ideal) ℓ) (ρ : Dev nD → PrngReg)

/-! ## The twelve arguments as launched -/

abbrev a0 (c : Dev nD) : S50000x128.Idx → EReal := m ((c : Thread nD τ).loc main_arg0)
abbrev a1 (c : Dev nD) : IVec S2x800000 32 := m ((c : Thread nD τ).loc main_arg1)
abbrev a2 (c : Dev nD) : S128x128.Idx → EReal := m ((c : Thread nD τ).loc main_arg2)
abbrev a3 (c : Dev nD) : S128.Idx → EReal := m ((c : Thread nD τ).loc main_arg3)
abbrev a4 (c : Dev nD) : S128x128.Idx → EReal := m ((c : Thread nD τ).loc main_arg4)
abbrev a5 (c : Dev nD) : S128.Idx → EReal := m ((c : Thread nD τ).loc main_arg5)
abbrev a6 (c : Dev nD) : S128.Idx → EReal := m ((c : Thread nD τ).loc main_arg6)
abbrev a7 (c : Dev nD) : S128.Idx → EReal := m ((c : Thread nD τ).loc main_arg7)
abbrev a8 (c : Dev nD) : S128.Idx → EReal := m ((c : Thread nD τ).loc main_arg8)
abbrev a9 (c : Dev nD) : S40x128.Idx → EReal := m ((c : Thread nD τ).loc main_arg9)
abbrev a10 (c : Dev nD) : S40.Idx → EReal := m ((c : Thread nD τ).loc main_arg10)
abbrev a11 (c : Dev nD) : S40x128.Idx → EReal := m ((c : Thread nD τ).loc main_arg11)

/-! ## Before the first region: each operand buffer as a stage of the arguments -/

theorem e_v1 (c : Dev nD) : (W1 m ρ c (Proc.devRef .tc main_v1) : IVec S800000 32) = val_main_v1 (F := Ideal) (a1 m c) := by
  show StableHlo.after hostOps0 (W0 m ρ c) (Proc.devRef .tc main_v1) = _
  after_results_simp
  rfl

theorem e_v3 (c : Dev nD) : (W1 m ρ c (Proc.devRef .tc main_v3) : IVec S800000 32) = val_main_v3 (F := Ideal) (a1 m c) := by
  show StableHlo.after hostOps0 (W0 m ρ c) (Proc.devRef .tc main_v3) = _
  after_results_simp
  rfl

theorem e_v11 (c : Dev nD) : (W1 m ρ c (Proc.devRef .tc main_v11) : S50000.Idx → EReal) = val_main_v11 (F := Ideal) (a1 m c) := by
  show StableHlo.after hostOps0 (W0 m ρ c) (Proc.devRef .tc main_v11) = _
  after_results_simp
  rfl

theorem e_v21 (c : Dev nD) : (V1 m ρ c main_v21 : S50000x128.Idx → EReal) = val_main_v21 (F := Ideal) (a0 m c) (a1 m c) := by
  show StableHlo.after hostOps0 (W0 m ρ c) (Proc.devRef .tc main_v21) = _
  after_results_simp
  rfl

theorem e_arg0 (c : Dev nD) : (V1 m ρ c main_arg0 : S50000x128.Idx → EReal) = a0 m c := by
  show StableHlo.after hostOps0 (W0 m ρ c) (Proc.devRef .tc main_arg0) = _
  after_results_simp

theorem e_v28 (c : Dev nD) : (V1 m ρ c main_v28 : S50000x1.Idx → EReal)
    = shapeCast S50000x1 (val_main_v11 (F := Ideal) (a1 m c)) shapeCasts_S50000_S50000x1 := by
  show StableHlo.after hostOps0 (W0 m ρ c) (Proc.devRef .tc main_v28) = _
  after_results_simp
  rfl

theorem e_v29 (c : Dev nD) : (V1 m ρ c main_v29 : S128x128.Idx → EReal) = val_main_v25 (F := Ideal) (a2 m c) := by
  show StableHlo.after hostOps0 (W0 m ρ c) (Proc.devRef .tc main_v29) = _
  after_results_simp
  rfl

theorem e_v30 (c : Dev nD) : (V1 m ρ c main_v30 : S128x128.Idx → EReal) = val_main_v30 (F := Ideal) (a4 m c) := by
  show StableHlo.after hostOps0 (W0 m ρ c) (Proc.devRef .tc main_v30) = _
  after_results_simp
  rfl

theorem e_v31 (c : Dev nD) : (V1 m ρ c main_v31 : S128x40.Idx → EReal) = val_main_v61 (F := Ideal) (a9 m c) := by
  show StableHlo.after hostOps0 (W0 m ρ c) (Proc.devRef .tc main_v31) = _
  after_results_simp
  rfl

theorem e_v32 (c : Dev nD) : (V1 m ρ c main_v32 : S1x128.Idx → EReal) = shapeCast S1x128 (a3 m c) shapeCasts_S128_S1x128 := by
  show StableHlo.after hostOps0 (W0 m ρ c) (Proc.devRef .tc main_v32) = _
  after_results_simp
  rfl

theorem e_v33 (c : Dev nD) : (V1 m ρ c main_v33 : S1x128.Idx → EReal)
    = shapeCast S1x128 (val_main_v41 (F := Ideal) (a5 m c) (a8 m c)) shapeCasts_S128_S1x128 := by
  show StableHlo.after hostOps0 (W0 m ρ c) (Proc.devRef .tc main_v33) = _
  after_results_simp
  rfl

theorem e_v34 (c : Dev nD) : (V1 m ρ c main_v34 : S1x128.Idx → EReal)
    = shapeCast S1x128 (fun i => a6 m c i - a7 m c i * val_main_v41 (F := Ideal) (a5 m c) (a8 m c) i : S128.Idx → EReal) shapeCasts_S128_S1x128 := by
  show StableHlo.after hostOps0 (W0 m ρ c) (Proc.devRef .tc main_v34) = _
  after_results_simp
  rfl

/-! ## The same buffers at an index -/

open Cert.SageSpec Cert.Params

/-- A length-`A` vector laid as a 1 × `A` row, at (0, j). -/
theorem row_cast_apply {A : ℕ} (v : (⟨1, ![A]⟩ : Shape).Idx → EReal) (h : (⟨1, ![A]⟩ : Shape).ShapeCasts ⟨2, ![1, A]⟩) (j : Fin A) :
    shapeCast ⟨2, ![1, A]⟩ v h (ix2 (0 : Fin 1) j) = v (ix1 j) :=
  shapeCast_apply v h (ix2 (0 : Fin 1) j) (ix1 j) (by
    rw [Shape.rowMajor_val_one, Shape.rowMajor_val_two]; show j.val = 0 * A + j.val; omega)

/-- A length-`A` vector laid as an `A` × 1 column, at (n, 0). -/
theorem col_cast_apply {A : ℕ} (v : (⟨1, ![A]⟩ : Shape).Idx → EReal) (h : (⟨1, ![A]⟩ : Shape).ShapeCasts ⟨2, ![A, 1]⟩) (n : Fin A) :
    shapeCast ⟨2, ![A, 1]⟩ v h (ix2 n (0 : Fin 1)) = v (ix1 n) :=
  shapeCast_apply v h (ix2 n (0 : Fin 1)) (ix1 n) (by
    rw [Shape.rowMajor_val_one, Shape.rowMajor_val_two]; show n.val = n.val * 1 + 0; omega)

theorem r_v21 (c : Dev nD) (n : Fin 50000) (k : Fin 128) :
    (V1 m ρ c main_v21 : S50000x128.Idx → EReal) (ix2 n k) = nbr (L (a1 m c)) (s (a1 m c)) (fun m' => mat (a0 m c) m' k) n := by
  rw [e_v21]; exact Cert.RefSide.ref_agg1 (a0 m c) (a1 m c) n k

theorem r_arg0 (c : Dev nD) (n : Fin 50000) (k : Fin 128) :
    (V1 m ρ c main_arg0 : S50000x128.Idx → EReal) (ix2 n k) = mat (a0 m c) n k := by
  rw [e_arg0]; rfl

theorem r_v28 (c : Dev nD) (n : Fin 50000) :
    (V1 m ρ c main_v28 : S50000x1.Idx → EReal) (ix2 n (0 : Fin 1)) = inv (a1 m c) n := by
  rw [e_v28]; exact col_cast_apply _ _ n

theorem r_v29 (c : Dev nD) (k j : Fin 128) :
    (V1 m ρ c main_v29 : S128x128.Idx → EReal) (ix2 k j) = mat (a2 m c) j k := by
  rw [e_v29, Cert.ReferenceIdeal.Read.val_main_v25_apply]
  exact congrArg (a2 m c) (funext fun a => match a with | ⟨0, _⟩ => rfl | ⟨1, _⟩ => rfl)

theorem r_v30 (c : Dev nD) (k j : Fin 128) :
    (V1 m ρ c main_v30 : S128x128.Idx → EReal) (ix2 k j) = mat (a4 m c) j k := by
  rw [e_v30, Cert.ReferenceIdeal.Read.val_main_v30_apply]
  exact congrArg (a4 m c) (funext fun a => match a with | ⟨0, _⟩ => rfl | ⟨1, _⟩ => rfl)

theorem r_v31 (c : Dev nD) (j : Fin 128) (q : Fin 40) :
    (V1 m ρ c main_v31 : S128x40.Idx → EReal) (ix2 j q) = mat (a9 m c) q j := by
  rw [e_v31, Cert.ReferenceIdeal.Read.val_main_v61_apply]
  exact congrArg (a9 m c) (funext fun a => match a with | ⟨0, _⟩ => rfl | ⟨1, _⟩ => rfl)

theorem r_v32 (c : Dev nD) (j : Fin 128) :
    (V1 m ρ c main_v32 : S1x128.Idx → EReal) (ix2 (0 : Fin 1) j) = vec (a3 m c) j := by
  rw [e_v32]; exact row_cast_apply _ _ j

theorem r_v33 (c : Dev nD) (j : Fin 128) :
    (V1 m ρ c main_v33 : S1x128.Idx → EReal) (ix2 (0 : Fin 1) j) = sc (a5 m c) (a8 m c) j := by
  rw [e_v33]; exact row_cast_apply _ _ j

theorem r_v34 (c : Dev nD) (j : Fin 128) :
    (V1 m ρ c main_v34 : S1x128.Idx → EReal) (ix2 (0 : Fin 1) j)
      = vec (a6 m c) j - vec (a7 m c) j * sc (a5 m c) (a8 m c) j := by
  rw [e_v34]; exact row_cast_apply _ _ j

/-! ## Between the regions -/

theorem e3_v46 (c : Dev nD) : (V3 m ρ c main_v46 : S50000x40.Idx → EReal)
    = Host.scatterAdd (F := Ideal) (φ := .f32) scatter_S50000x40_S800000x1_S800000x40_1_0_0_1
        (broadcastInDim S50000x40 ![] bcast_S_S50000x40 (constant (F := Ideal) S_ .f32 0x00000000#32))
        (val_main_v20 (F := Ideal) (a1 m c))
        (extf .f32 (Host.gather gather_S50000x40_S800000x1_S800000x40_1_0_n_n_0_1_140
            (W2 m ρ c (Proc.devRef .tc main_v35_1) : FVec Ideal S50000x40 .bf16) (val_main_v17 (F := Ideal) (a1 m c))) bitsLt_bf16_f32) := by
  show StableHlo.after hostOps1 (W2 m ρ c) (Proc.devRef .tc main_v46) = _
  after_results_simp
  rw [W2_of_ne m ρ c main_v1 (by decide), W2_of_ne m ρ c main_v3 (by decide), e_v1 m ρ c, e_v3 m ρ c]
  rfl

theorem e3_v47 (c : Dev nD) : (V3 m ρ c main_v47 : S50000x1.Idx → EReal)
    = shapeCast S50000x1 (val_main_v11 (F := Ideal) (a1 m c)) shapeCasts_S50000_S50000x1 := by
  show StableHlo.after hostOps1 (W2 m ρ c) (Proc.devRef .tc main_v47) = _
  after_results_simp
  rw [W2_of_ne m ρ c main_v11 (by decide), e_v11 m ρ c]
  rfl

theorem e3_v35_0 (c : Dev nD) : (V3 m ρ c main_v35_0 : S50000x128.Idx → EReal) = W2 m ρ c (Proc.devRef .tc main_v35_0) := by
  show StableHlo.after hostOps1 (W2 m ρ c) (Proc.devRef .tc main_v35_0) = _
  after_results_simp

theorem e3_v48 (c : Dev nD) : (V3 m ρ c main_v48 : S128x40.Idx → EReal) = val_main_v66 (F := Ideal) (a11 m c) := by
  show StableHlo.after hostOps1 (W2 m ρ c) (Proc.devRef .tc main_v48) = _
  after_results_simp
  rw [W2_of_ne m ρ c main_arg11 (by decide)]
  show val_main_v66 (F := Ideal) (W1 m ρ c (Proc.devRef .tc main_arg11)) = _
  rw [show (W1 m ρ c (Proc.devRef .tc main_arg11) : S40x128.Idx → EReal) = a11 m c from by
    show StableHlo.after hostOps0 (W0 m ρ c) (Proc.devRef .tc main_arg11) = _
    after_results_simp]

theorem e3_v49 (c : Dev nD) : (V3 m ρ c main_v49 : S1x40.Idx → EReal) = shapeCast S1x40 (a10 m c) shapeCasts_S40_S1x40 := by
  show StableHlo.after hostOps1 (W2 m ρ c) (Proc.devRef .tc main_v49) = _
  after_results_simp
  rw [W2_of_ne m ρ c main_arg10 (by decide)]
  rw [show (W1 m ρ c (Proc.devRef .tc main_arg10) : S40.Idx → EReal) = a10 m c from by
    show StableHlo.after hostOps0 (W0 m ρ c) (Proc.devRef .tc main_arg10) = _
    after_results_simp]
  rfl

/-- Projected rows (kept in the narrow format, widened after the gather) gathered at the clamped row numbers of
    `idxS` and added into a zero table at the row numbers of `idxL`: entry (n, q) is the sum, over the update rows
    aimed at `n`, of the table's entry in column `q` of the row the update was gathered from. -/
theorem gather_scatter40 (z : FVec Ideal S50000x40 .f32) (tb : FVec Ideal S50000x40 .bf16) (idxS idxL : IVec S800000x1 32)
    (hz : ∀ i, z i = 0) (n : Fin 50000) (q : Fin 40) :
    Host.scatterAdd (F := Ideal) (φ := .f32) scatter_S50000x40_S800000x1_S800000x40_1_0_0_1 z idxL
        (extf .f32 (Host.gather gather_S50000x40_S800000x1_S800000x40_1_0_n_n_0_1_140 tb idxS) bitsLt_bf16_f32) (ix2 n q)
      = ∑ e ∈ Cert.Lib.RowAggregate.landing (N := 50000) idxL n,
          tb (ix2 (Cert.Lib.RowAggregate.srcRow (N := 50000) (by decide) idxS e) q) := by
  rw [Cert.Lib.RowAggregate.scatterAdd_row_apply scatter_S50000x40_S800000x1_S800000x40_1_0_0_1
    Facts₀.scatter_S50000x40_S800000x1_S800000x40_1_0_0_1_wf rfl, hz, zero_add]
  refine Finset.sum_congr rfl fun e _ => ?_
  rw [extf_apply]
  exact Cert.Lib.RowAggregate.gather_row_apply' (by decide) gather_S50000x40_S800000x1_S800000x40_1_0_n_n_0_1_140
    Facts₀.gather_S50000x40_S800000x1_S800000x40_1_0_n_n_0_1_140_wf rfl tb idxS e q

/-- The aggregated projections: the sum, over the edges landing on `n`, of the projected row of the edge's source. -/
theorem r3_v46 (c : Dev nD) (n : Fin 50000) (q : Fin 40) :
    (V3 m ρ c main_v46 : S50000x40.Idx → EReal) (ix2 n q)
      = nbr (L (a1 m c)) (s (a1 m c)) (fun m' => (W2 m ρ c (Proc.devRef .tc main_v35_1) : S50000x40.Idx → EReal) (ix2 m' q)) n := by
  refine (congrFun (e3_v46 m ρ c) (ix2 n q)).trans ?_
  exact gather_scatter40 _ _ _ _ (fun i => Ideal.ofBits_zero_f32) n q

theorem r3_v47 (c : Dev nD) (n : Fin 50000) :
    (V3 m ρ c main_v47 : S50000x1.Idx → EReal) (ix2 n (0 : Fin 1)) = inv (a1 m c) n := by
  rw [e3_v47]; exact col_cast_apply _ _ n

theorem r3_v48 (c : Dev nD) (j : Fin 128) (q : Fin 40) :
    (V3 m ρ c main_v48 : S128x40.Idx → EReal) (ix2 j q) = mat (a11 m c) q j := by
  rw [e3_v48, Cert.ReferenceIdeal.Read.val_main_v66_apply]
  exact congrArg (a11 m c) (funext fun a => match a with | ⟨0, _⟩ => rfl | ⟨1, _⟩ => rfl)

theorem r3_v49 (c : Dev nD) (q : Fin 40) :
    (V3 m ρ c main_v49 : S1x40.Idx → EReal) (ix2 (0 : Fin 1) q) = vec (a10 m c) q := by
  rw [e3_v49]; exact row_cast_apply _ _ q

end Cert.KernelIdeal.KHost

end
-- ==== Proof.KernelValue.lean ====
/-
  The idealized kernel's result array, entry by entry, is the specification's second arrangement.

  The first region leaves the hidden features `H` and their projection `P` (Region0.lean), as functions of the buffers
  the host prepared; read through the host's stages (KernelHost.lean) these are the specification's `hidK` and the
  products `Σ_j hidK · W2l`. The host then sums the projected rows over the edges, and the second region adds the
  node's own hidden features times `W2r`, the scaled neighbour sum and the bias (Region1.lean): `outK`.
-/
import proofs.«141840_j84146999263864_2_alg».proof.Proof.Region1
import proofs.«141840_j84146999263864_2_alg».proof.Proof.KernelHost

set_option maxRecDepth 16384

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.KernelIdeal.GenP Cert.KernelIdeal.KHost Cert.SageSpec Cert.Params
open Cert.KernelIdeal.Reg0 (tab tab_apply)

variable (m : (ℓ : Loc nD τ sig) → Buf (Elt Ideal) ℓ) (ρ : Dev nD → PrngReg)

/-- The hidden features the kernel computes, over the arguments. -/
abbrev hK (c : Dev nD) : Fin 50000 → Fin 128 → EReal :=
  hidK (L (a1 m c)) (s (a1 m c)) (inv (a1 m c)) (mat (a0 m c)) (mat (a2 m c)) (vec (a3 m c)) (mat (a4 m c))
    (sc (a5 m c) (a8 m c)) (vec (a7 m c)) (vec (a6 m c))

theorem H_eq (c : Dev nD) (n : Fin 50000) (j : Fin 128) : Reg0.H (V1 m ρ) c n j = hK m c n j := by
  unfold Reg0.H Reg0.Hf hK hidK preK
  simp only [r_v21 m ρ c, r_v28 m ρ c, r_v29 m ρ c, r_arg0 m ρ c, r_v30 m ρ c, r_v32 m ρ c, r_v33 m ρ c, r_v34 m ρ c]

theorem P_eq (c : Dev nD) (n : Fin 50000) (q : Fin 40) :
    Reg0.P (V1 m ρ) c n q = ∑ j : Fin 128, hK m c n j * mat (a9 m c) q j := by
  unfold Reg0.P Reg0.Pf
  simp only [H_eq m ρ c, r_v31 m ρ c]

/-- After the first region the hidden-feature buffer holds `hK` … -/
theorem hidden_buf (c : Dev nD) (n : Fin 50000) (j : Fin 128) :
    (W2 m ρ c (Proc.devRef .tc main_v35_0) : S50000x128.Idx → EReal) (ix2 n j) = hK m c n j := by
  have h : (W2 m ρ c (Proc.devRef .tc main_v35_0) : S50000x128.Idx → EReal) = tab (Reg0.H (V1 m ρ) c) :=
    (W2_arr m ρ c 9).trans (Reg0.hidden_array (V1 m ρ) c)
  rw [h, tab_apply, H_eq]

/-- … and the projection buffer their products with the second layer's neighbour weights. -/
theorem proj_buf (c : Dev nD) (n : Fin 50000) (q : Fin 40) :
    (W2 m ρ c (Proc.devRef .tc main_v35_1) : S50000x40.Idx → EReal) (ix2 n q) = ∑ j : Fin 128, hK m c n j * mat (a9 m c) q j := by
  have h : (W2 m ρ c (Proc.devRef .tc main_v35_1) : S50000x40.Idx → EReal) = tab (Reg0.P (V1 m ρ) c) :=
    (W2_arr m ρ c 10).trans (Reg0.proj_array (V1 m ρ) c)
  rw [h, tab_apply, P_eq]

theorem O_eq (c : Dev nD) (n : Fin 50000) (q : Fin 40) :
    Reg1.O (V3 m ρ) c n q
      = outK (L (a1 m c)) (s (a1 m c)) (inv (a1 m c)) (hK m c) (mat (a9 m c)) (vec (a10 m c)) (mat (a11 m c)) n q := by
  unfold Reg1.O Reg1.Of outK
  rw [r3_v46 m ρ c, r3_v47 m ρ c, r3_v49 m ρ c]
  simp only [r3_v48 m ρ c, e3_v35_0 m ρ c, hidden_buf m ρ c, proj_buf m ρ c]

/-- THE KERNEL'S RESULT at node `n`, class `q`. -/
theorem kernel_value (c : Dev nD) (n : Fin 50000) (q : Fin 40) :
    (W4 m ρ c (Proc.devRef .tc main_v50) : S50000x40.Idx → EReal) (ix2 n q)
      = outK (L (a1 m c)) (s (a1 m c)) (inv (a1 m c)) (hK m c) (mat (a9 m c)) (vec (a10 m c)) (mat (a11 m c)) n q := by
  have h : (W4 m ρ c (Proc.devRef .tc main_v50) : S50000x40.Idx → EReal) = tab (Reg1.O (V3 m ρ) c) :=
    (W4_arr m ρ c 5).trans (Reg1.result_array (V3 m ρ) c)
  rw [h, tab_apply, O_eq]

end Cert.KernelIdeal.KValue

end
-- ==== Proof.PreFacts.lean ====
/- The precondition of the certificate, decoded: the printed predicate is a conjunction of "every entry of the array has
   absolute value below +∞", once per float argument, and "every entry of the running variance is at least 0". Read at
   the ideal instance, where a float is an extended real, the first says that every entry is a real number.

   One general lemma reads a single conjunct "all (|a| < +∞)" over an arbitrary shape; the theorem splits the conjunction
   and applies it to each argument in turn. -/
import proofs.«141840_j84146999263864_2_alg».proof.Pre_finite_inputs
import proofs.«141840_j84146999263864_2_alg».proof.Proof.Gen.Pre_finite_inputs
import proofs.«141840_j84146999263864_2_alg».proof.Proof.LibFinite
import Idealize.ShloMosaic.Lib.ReduceAll
import Idealize.ShloMosaic.Lib.ValueIdx
import Idealize.ShloMosaic.PureOps.Ideal

namespace Cert.PreFacts

open Idealize.ShloMosaic Idealize.ShloMosaic.ValueIdx Cert.Pre_finite_inputs Cert.Lib.Finite

/-- The rank-0 shape has exactly one index. -/
instance : Subsingleton S_.Idx := ⟨fun a b => funext fun d => d.elim0⟩

/-- The f32 pattern `0x7F800000` denotes +∞. -/
theorem ofBits_inf_f32 : Ideal.ofBits .f32 0x7F800000#32 = (⊤ : EReal) := by
  simp [Ideal.ofBits, Ideal.ieee]

/-- The f32 pattern of all zero bits denotes 0. -/
theorem ofBits_zero_f32 : Ideal.ofBits .f32 0x00000000#32 = (0 : EReal) := by
  simp [Ideal.ofBits, Ideal.ieee]

/-- An extended real whose absolute value `max x (-x)` lies strictly below +∞ is a real number: at `⊥` and at `⊤`
the absolute value is `⊤`. -/
theorem isReal_of_abs_lt_top (x : EReal) (h : max x (-x) < ⊤) : IsReal x := by
  induction x using EReal.rec with
  | bot => exact absurd h (by simp)
  | coe r => exact ⟨r, rfl⟩
  | top => exact absurd h (by simp)

/-- A one-bit word built from a decidable proposition is 1 exactly when the proposition holds. -/
theorem ofBool_decide_eq_one {p : Prop} [Decidable p] (h : BitVec.ofBool (decide p) = 1#1) : p := by
  by_contra hp
  rw [decide_eq_false hp] at h
  exact absurd h (by decide)

/-- `all (|a| < +∞) = 1` over any shape: every entry of `a` is a real number. The shape facts the broadcast and the
reduction take are variables, so the lemma applies to each argument's own records. -/
theorem all_finite {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1)
    (i : s.Idx) : IsReal (a i) := by
  have hi := Host.reduce_andi_all _ _ hr hu ix0 e i
  have hi' : BitVec.ofBool (decide (max (a i) (-(a i)) < Ideal.ofBits .f32 0x7F800000#32)) = 1#1 := hi
  rw [ofBits_inf_f32] at hi'
  exact isReal_of_abs_lt_top _ (ofBool_decide_eq_one hi')

/-- `all (a ≥ 0) = 1` over any shape: every entry of `a` is at least 0. -/
theorem all_nonneg {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .oge a (broadcastInDim s ![] hb (constant (F := Ideal) S_ .f32 0x00000000#32)))
          (constantI S_ 1 1#1) hr hu ix0 = 1#1)
    (i : s.Idx) : (0 : EReal) ≤ a i := by
  have hi := Host.reduce_andi_all _ _ hr hu ix0 e i
  have hi' : BitVec.ofBool (decide (Ideal.ofBits .f32 0x00000000#32 ≤ a i)) = 1#1 := hi
  rw [ofBits_zero_f32] at hi'
  exact ofBool_decide_eq_one hi'

/-- The precondition decoded: every float argument is real entrywise, and the running variance is nonnegative. -/
theorem of_pre (a0 : FVec Ideal S50000x128 .f32) (a1 : IVec S2x800000 32) (a2 : FVec Ideal S128x128 .f32)
    (a3 : FVec Ideal S128 .f32) (a4 : FVec Ideal S128x128 .f32) (a5 : FVec Ideal S128 .f32)
    (a6 : FVec Ideal S128 .f32) (a7 : FVec Ideal S128 .f32) (a8 : FVec Ideal S128 .f32)
    (a9 : FVec Ideal S40x128 .f32) (a10 : FVec Ideal S40 .f32) (a11 : FVec Ideal S40x128 .f32)
    (h : Cert.Pre_finite_inputs.fn (F := Ideal) a0 a1 a2 a3 a4 a5 a6 a7 a8 a9 a10 a11 = (fun _ => 1#1)) :
    (∀ i, IsReal (a0 i)) ∧ (∀ i, IsReal (a2 i)) ∧ (∀ i, IsReal (a3 i)) ∧ (∀ i, IsReal (a4 i)) ∧
    (∀ i, IsReal (a5 i)) ∧ (∀ i, IsReal (a6 i)) ∧ (∀ i, IsReal (a7 i)) ∧ (∀ i, IsReal (a8 i)) ∧
    (∀ i, IsReal (a9 i)) ∧ (∀ i, IsReal (a10 i)) ∧ (∀ i, IsReal (a11 i)) ∧ (∀ i, 0 ≤ a8 i) := by
  have h0 := congrFun h ix0
  dsimp only [fn, fn_part1, fn_part2, fn_part3] at h0
  obtain ⟨h0, h56⟩ := IntOp.andi_eq_one.1 h0
  obtain ⟨h0, h52⟩ := IntOp.andi_eq_one.1 h0
  obtain ⟨h0, h47⟩ := IntOp.andi_eq_one.1 h0
  obtain ⟨h0, h42⟩ := IntOp.andi_eq_one.1 h0
  obtain ⟨h0, h37⟩ := IntOp.andi_eq_one.1 h0
  obtain ⟨h0, h32⟩ := IntOp.andi_eq_one.1 h0
  obtain ⟨h0, h27⟩ := IntOp.andi_eq_one.1 h0
  obtain ⟨h0, h22⟩ := IntOp.andi_eq_one.1 h0
  obtain ⟨h0, h17⟩ := IntOp.andi_eq_one.1 h0
  obtain ⟨h0, h12⟩ := IntOp.andi_eq_one.1 h0
  obtain ⟨h3, h7⟩ := IntOp.andi_eq_one.1 h0
  exact ⟨all_finite a0 _ _ _ h3, all_finite a2 _ _ _ h7, all_finite a3 _ _ _ h12, all_finite a4 _ _ _ h17,
    all_finite a5 _ _ _ h22, all_finite a6 _ _ _ h27, all_finite a7 _ _ _ h32, all_finite a8 _ _ _ h37,
    all_finite a9 _ _ _ h42, all_finite a10 _ _ _ h47, all_finite a11 _ _ _ h52, all_nonneg a8 _ _ _ h56⟩

end Cert.PreFacts
-- ==== Proof.lean ====
/-
  Two graph-convolution layers with mean aggregation and an inference-time batch normalisation between them: the
  Pallas program against the plain reference, over the extended reals.

  Both programs compute, for every node n and class c,
      out(n, c) = Σ_j ((Σ_{e → n} h(src e, j)) · inv(n)) · W2l(c, j) + b2(c) + Σ_j h(n, j) · W2r(c, j),
  with hidden features h(n, j) = (max(z(n, j), 0) − μ_j) · γ_j/√(σ_j² + ε) + β_j and
  z(n, j) = Σ_k ((Σ_{e → n} x(src e, k)) · inv(n)) · W1l(j, k) + b1(j) + Σ_k x(n, k) · W1r(j, k).
  The Pallas program differs in three ways. It folds the normalisation into a scale and a shift,
  r·sc + (β − μ·sc); it multiplies the hidden features by W2l BEFORE the irregular sum over the edges (so that the
  edges carry 40 numbers instead of 128); and it adds each layer's three summands in another order. The last is free
  on the extended reals. The first two are distributivity, which fails at the infinities: they hold because every
  float input is finite and, the running variance being non-negative, the scale γ/√(σ² + ε) is a real number (at
  σ² = −ε the two programs differ: the quotient is infinite and r·∞ + (β − μ·∞) is not (r − μ)·∞ + β). The
  mathematics is in SageSpec.lean; RefSide.lean reads the reference at an index; KernelBody, Region0, Region1,
  KernelHost and KernelValue read the Pallas program; PreFacts decodes the precondition.

  The three frames: the two Pallas programs' by their launch over the four segments of @main, the reference's by its
  run with the result dropped. The idealization rewrote nothing, so the fourth claim is trivial.
-/
import proofs.«141840_j84146999263864_2_alg».proof.Defs
import proofs.«141840_j84146999263864_2_alg».proof.Proof.Gen.Kernel
import proofs.«141840_j84146999263864_2_alg».proof.Proof.Gen.KernelIdeal
import proofs.«141840_j84146999263864_2_alg».proof.Proof.Gen.ReferenceIdeal
import proofs.«141840_j84146999263864_2_alg».proof.Proof.Gen.Pre_finite_inputs
import proofs.«141840_j84146999263864_2_alg».proof.Proof.Gen.ReferenceIdeal.Read
import proofs.«141840_j84146999263864_2_alg».proof.Proof.KernelFrameP
import proofs.«141840_j84146999263864_2_alg».proof.Proof.KernelIdealFrameP
import proofs.«141840_j84146999263864_2_alg».proof.Proof.KernelRun
import proofs.«141840_j84146999263864_2_alg».proof.Proof.KernelValue
import proofs.«141840_j84146999263864_2_alg».proof.Proof.RefSide
import proofs.«141840_j84146999263864_2_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result array: entry (n, c) of the reference's is the first arrangement, of the
    Pallas program's the second, and the two agree at real parameters. -/
theorem algebraic : Cert.algebraic_KernelIdeal_ReferenceIdeal := by
  intro m ρ m' ρ' hpre hagree
  refine ⟨fun c => Cert.KernelIdeal.GenP.W4 m ρ c (Proc.devRef .tc Cert.KernelIdeal.main_v50),
    Cert.KernelIdeal.GenP.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq]
  obtain ⟨e0, e1, e2, e3, e4, e5, e6, e7, e8, e9, e10, e11⟩ := hagree c
  rw [e0, e1, e2, e3, e4, e5, e6, e7, e8, e9, e10, e11]
  obtain ⟨f0, f2, f3, f4, f5, f6, f7, f8, f9, f10, f11, fpos⟩ := Cert.PreFacts.of_pre _ _ _ _ _ _ _ _ _ _ _ _ (hpre c)
  funext i
  obtain ⟨n, q, rfl⟩ : ∃ (n : Fin 50000) (q : Fin 40), i = ix2 n q := ⟨i 0, i 1, eq_ix2 i⟩
  refine (Cert.RefSide.ref_out _ _ _ _ _ _ _ _ _ _ _ _ n q).trans ?_
  refine Eq.trans ?_ (Cert.KernelIdeal.KValue.kernel_value m ρ c n q).symm
  exact (Cert.SageSpec.kernel_eq_reference _ _ _ _ _ _ _ _ _ _ _ _ _
    (Cert.RefSide.inv_isReal _) (fun n k => f0 _) (fun j k => f2 _) (fun j => f3 _) (fun j k => f4 _)
    (Cert.RefSide.sc_isReal _ _ f5 f8 fpos) (fun j => f7 _) (fun j => f6 _) (fun c j => f9 _) n q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
